-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x112x112 : Shape := ⟨4, ![8, 32, 112, 112]⟩
abbrev S32x32x3x3 : Shape := ⟨4, ![32, 32, 3, 3]⟩
abbrev S_ : Shape := ⟨0, ![]⟩

class Facts : Prop where
  bcast_S_S8x32x112x112 : S_.BroadcastsInDim S8x32x112x112 (![] : Fin 0 → Fin S8x32x112x112.rank)
  reducesTo_S8x32x112x112_S_d0_1_2_3 : S8x32x112x112.ReducesTo [0, 1, 2, 3] S_
  h_S_ : 0 < S_.numel
  bcast_S_S32x32x3x3 : S_.BroadcastsInDim S32x32x3x3 (![] : Fin 0 → Fin S32x32x3x3.rank)
  reducesTo_S32x32x3x3_S_d0_1_2_3 : S32x32x3x3.ReducesTo [0, 1, 2, 3] S_

variable [Facts]

def fn {F : FTy → Type} [FloatOps F] (main_arg0 : FVec F S8x32x112x112 .f32) (main_arg1 : FVec F S32x32x3x3 .f32) : IVec S_ 1 :=
  let main_v0 : FVec F S8x32x112x112 .f32 := Host.absf main_arg0
  let main_cst : FVec F S_ .f32 := constant S_ .f32 0x7F800000#32
  let main_v1 : FVec F S8x32x112x112 .f32 := broadcastInDim S8x32x112x112 ![] bcast_S_S8x32x112x112 main_cst
  let main_v2 : IVec S8x32x112x112 1 := cmpf .olt main_v0 main_v1
  let main_c : IVec S_ 1 := constantI S_ 1 1#1
  let main_v3 : IVec S_ 1 := (fun x v => Host.reduce IntOp.andi x v reducesTo_S8x32x112x112_S_d0_1_2_3 h_S_) main_v2 main_c
  let main_v4 : FVec F S32x32x3x3 .f32 := Host.absf main_arg1
  let main_cst_0 : FVec F S_ .f32 := constant S_ .f32 0x7F800000#32
  let main_v5 : FVec F S32x32x3x3 .f32 := broadcastInDim S32x32x3x3 ![] bcast_S_S32x32x3x3 main_cst_0
  let main_v6 : IVec S32x32x3x3 1 := cmpf .olt main_v4 main_v5
  let main_c_1 : IVec S_ 1 := constantI S_ 1 1#1
  let main_v7 : IVec S_ 1 := (fun x v => Host.reduce IntOp.andi x v reducesTo_S32x32x3x3_S_d0_1_2_3 h_S_) main_v6 main_c_1
  let main_v8 : IVec S_ 1 := andi main_v3 main_v7
  main_v8
-- ==== Kernel.lean ====
abbrev S8x32x112x112 : Shape := ⟨4, ![8, 32, 112, 112]⟩
abbrev S32x32x3x3 : Shape := ⟨4, ![32, 32, 3, 3]⟩
abbrev S_ : Shape := ⟨0, ![]⟩
abbrev S8x32x114x114 : Shape := ⟨4, ![8, 32, 114, 114]⟩
abbrev S1x32x114x114 : Shape := ⟨4, ![1, 32, 114, 114]⟩
abbrev S1x32x112x112 : Shape := ⟨4, ![1, 32, 112, 112]⟩
abbrev S32x112x112 : Shape := ⟨3, ![32, 112, 112]⟩
abbrev S1x1x114x114 : Shape := ⟨4, ![1, 1, 114, 114]⟩
abbrev S114x114 : Shape := ⟨2, ![114, 114]⟩
abbrev S1x32x3x3 : Shape := ⟨4, ![1, 32, 3, 3]⟩
abbrev S32x3x3 : Shape := ⟨3, ![32, 3, 3]⟩
abbrev S112x112 : Shape := ⟨2, ![112, 112]⟩
abbrev S32x1x1 : Shape := ⟨3, ![32, 1, 1]⟩
abbrev S32 : Shape := ⟨1, ![32]⟩
abbrev S1x112x112 : Shape := ⟨3, ![1, 112, 112]⟩

abbrev nBuf : Space → Nat
  | .hbm => 7
  | .vmem => 6
  | .smem => 0
  | _ => 0

abbrev bufTy : (tb : Table) → Fin (tcTables nBuf tb) → BufTy
  | .hbm, ⟨0, _⟩ => ⟨S8x32x112x112, .f32⟩
  | .hbm, ⟨1, _⟩ => ⟨S32x32x3x3, .f32⟩
  | .hbm, ⟨2, _⟩ => ⟨S_, .f32⟩
  | .hbm, ⟨3, _⟩ => ⟨S_, .f32⟩
  | .hbm, ⟨4, _⟩ => ⟨S8x32x114x114, .f32⟩
  | .hbm, ⟨5, _⟩ => ⟨S32x32x3x3, .f32⟩
  | .hbm, ⟨6, _⟩ => ⟨S8x32x112x112, .f32⟩
  | .local _ .vmem, ⟨0, _⟩ => ⟨S1x32x114x114, .f32⟩
  | .local _ .vmem, ⟨1, _⟩ => ⟨S1x32x114x114, .f32⟩
  | .local _ .vmem, ⟨2, _⟩ => ⟨S32x32x3x3, .f32⟩
  | .local _ .vmem, ⟨3, _⟩ => ⟨S1x32x112x112, .f32⟩
  | .local _ .vmem, ⟨4, _⟩ => ⟨S1x32x112x112, .f32⟩
  | .local _ .vmem, ⟨5, _⟩ => ⟨S32x112x112, .f32⟩
  | _, _ => ⟨S8x32x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_off1 (k0_t1 : Fin k0_t1_loop.trips) : Fin 4 → Nat :=
  let c0_10 : Index := 0#32
  let c0_i32 : BitVec 32 := 0#32
  let c1_i32 : BitVec 32 := 1#32
  let arg5 : BitVec 32 := Scf.iv c0_i32 c1_i32 k0_t1
  let v9 : Index := Scalar.indexCast arg5
  let c0_11 : Index := 0#32
  let c0_12 : Index := 0#32
  ![0, v9.toNat, 0, 0]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v12 : Index := Scalar.indexCast arg5
  let c0_13 : Index := 0#32
  let c0_14 : Index := 0#32
  let c0_15 : Index := 0#32
  ![v12.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x114x114 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x112x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x32x112x112_S8x32x114x114_000_000_110_110 : S8x32x112x112.Pads (![0, 0, 1, 1] : Fin 4 → Nat) ![0, 0, 1, 1] ![0, 0, 0, 0] S8x32x114x114
  h_S_ : 0 < S_.numel
  transposes_S32x32x3x3_S32x32x3x3_1_0_2_3 : S32x32x3x3.Transposes [1, 0, 2, 3] S32x32x3x3
  inb_S32x112x112_S32x112x112_0_0_0 : ∀ a, (![0, 0, 0] : Fin 3 → Nat) a + S32x112x112.size a ≤ S32x112x112.size a
  h_S32x112x112 : 0 < S32x112x112.numel
  shapeCasts_S32x112x112_S32x112x112 : S32x112x112.ShapeCasts S32x112x112
  h_S1x1x114x114 : 0 < S1x1x114x114.numel
  shapeCasts_S1x1x114x114_S114x114 : S1x1x114x114.ShapeCasts S114x114
  h_S1x32x3x3 : 0 < S1x32x3x3.numel
  shapeCasts_S1x32x3x3_S32x3x3 : S1x32x3x3.ShapeCasts S32x3x3
  slices_S114x114_o0_0_S112x112 : S114x114.Slices ![0, 0] S112x112
  slices_S32x3x3_o0_0_0_S32x1x1 : S32x3x3.Slices ![0, 0, 0] S32x1x1
  shapeCasts_S32x1x1_S32 : S32x1x1.ShapeCasts S32
  shapeCasts_S112x112_S1x112x112 : S112x112.ShapeCasts S1x112x112
  shapeCasts_S32_S32x1x1 : S32.ShapeCasts S32x1x1
  broadcasts_S1x112x112_S32x112x112 : S1x112x112.Broadcasts S32x112x112
  broadcasts_S32x1x1_S32x112x112 : S32x1x1.Broadcasts S32x112x112
  slices_S114x114_o0_1_S112x112 : S114x114.Slices ![0, 1] S112x112
  slices_S32x3x3_o0_0_1_S32x1x1 : S32x3x3.Slices ![0, 0, 1] S32x1x1
  slices_S114x114_o0_2_S112x112 : S114x114.Slices ![0, 2] S112x112
  slices_S32x3x3_o0_0_2_S32x1x1 : S32x3x3.Slices ![0, 0, 2] S32x1x1
  slices_S114x114_o1_0_S112x112 : S114x114.Slices ![1, 0] S112x112
  slices_S32x3x3_o0_1_0_S32x1x1 : S32x3x3.Slices ![0, 1, 0] S32x1x1
  slices_S114x114_o1_1_S112x112 : S114x114.Slices ![1, 1] S112x112
  slices_S32x3x3_o0_1_1_S32x1x1 : S32x3x3.Slices ![0, 1, 1] S32x1x1
  slices_S114x114_o1_2_S112x112 : S114x114.Slices ![1, 2] S112x112
  slices_S32x3x3_o0_1_2_S32x1x1 : S32x3x3.Slices ![0, 1, 2] S32x1x1
  slices_S114x114_o2_0_S112x112 : S114x114.Slices ![2, 0] S112x112
  slices_S32x3x3_o0_2_0_S32x1x1 : S32x3x3.Slices ![0, 2, 0] S32x1x1
  slices_S114x114_o2_1_S112x112 : S114x114.Slices ![2, 1] S112x112
  slices_S32x3x3_o0_2_1_S32x1x1 : S32x3x3.Slices ![0, 2, 1] S32x1x1
  slices_S114x114_o2_2_S112x112 : S114x114.Slices ![2, 2] S112x112
  slices_S32x3x3_o0_2_2_S32x1x1 : S32x3x3.Slices ![0, 2, 2] S32x1x1
  inb_S1x32x112x112_S1x32x112x112_0_0_0_0 : ∀ a, (![0, 0, 0, 0] : Fin 4 → Nat) a + S1x32x112x112.size a ≤ S1x32x112x112.size a
  h_S1x32x112x112 : 0 < S1x32x112x112.numel
  shapeCasts_S1x32x112x112_S32x112x112 : S1x32x112x112.ShapeCasts S32x112x112
  shapeCasts_S32x112x112_S1x32x112x112 : S32x112x112.ShapeCasts S1x32x112x112
  hrank0 : 0 < grid0.rank
  k0_t1_ok : k0_t1_loop.OK
  k0_off1_inb : ∀ k0_t1 : Fin k0_t1_loop.trips, ∀ a, (k0_off1 k0_t1) a + S1x1x114x114.size a ≤ S1x32x114x114.size a
  k0_off2_inb : ∀ k0_t1 : Fin k0_t1_loop.trips, ∀ a, (k0_off2 k0_t1) a + S1x32x3x3.size a ≤ S32x32x3x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x114x114.size a ≤ S8x32x114x114.size a
  hwx0_0 : ∀ i : grid0.Coords, EltTy.bits .f32 = 32 ∨ (Rect.block (s := S8x32x114x114) S1x32x114x114.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32x3x3.size a ≤ S32x32x3x3.size a
  hwx0_1 : ∀ i : grid0.Coords, EltTy.bits .f32 = 32 ∨ (Rect.block (s := S32x32x3x3) S32x32x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x112x112.size a ≤ S8x32x112x112.size a
  hwx0_2 : ∀ i : grid0.Coords, EltTy.bits .f32 = 32 ∨ (Rect.block (s := S8x32x112x112) S1x32x112x112.size (cc0_transform_2 i) (hinb0_2 i)).WholeWords (EltTy.packing .f32)

variable [Facts₀]

abbrev win0_0 : Pipeline.Window sig grid0 :=
  Pipeline.Window.ofSpec (Memref.whole main_v0) S1x32x114x114.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x32x3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x112x112.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x112x112 : Shape := ⟨4, ![8, 32, 112, 112]⟩
abbrev S32x32x3x3 : Shape := ⟨4, ![32, 32, 3, 3]⟩
abbrev S_ : Shape := ⟨0, ![]⟩
abbrev S8x32x114x114 : Shape := ⟨4, ![8, 32, 114, 114]⟩
abbrev S32x32x1x1 : Shape := ⟨4, ![32, 32, 1, 1]⟩
abbrev S32x32 : Shape := ⟨2, ![32, 32]⟩
abbrev S8x1x32x112x112 : Shape := ⟨5, ![8, 1, 32, 112, 112]⟩
abbrev S1x32x32x1x1 : Shape := ⟨5, ![1, 32, 32, 1, 1]⟩
abbrev S8x32x32x112x112 : Shape := ⟨5, ![8, 32, 32, 112, 112]⟩

abbrev nBuf : Space → Nat
  | .hbm => 106
  | .vmem => 0
  | .smem => 0
  | _ => 0

abbrev bufTy : (tb : Table) → Fin (tcTables nBuf tb) → BufTy
  | .hbm, ⟨0, _⟩ => ⟨S8x32x112x112, .f32⟩
  | .hbm, ⟨1, _⟩ => ⟨S32x32x3x3, .f32⟩
  | .hbm, ⟨2, _⟩ => ⟨S_, .f32⟩
  | .hbm, ⟨3, _⟩ => ⟨S_, .f32⟩
  | .hbm, ⟨4, _⟩ => ⟨S8x32x114x114, .f32⟩
  | .hbm, ⟨5, _⟩ => ⟨S_, .f32⟩
  | .hbm, ⟨6, _⟩ => ⟨S8x32x112x112, .f32⟩
  | .hbm, ⟨7, _⟩ => ⟨S8x32x112x112, .f32⟩
  | .hbm, ⟨8, _⟩ => ⟨S32x32x1x1, .f32⟩
  | .hbm, ⟨9, _⟩ => ⟨S32x32, .f32⟩
  | .hbm, ⟨10, _⟩ => ⟨S8x1x32x112x112, .f32⟩
  | .hbm, ⟨11, _⟩ => ⟨S1x32x32x1x1, .f32⟩
  | .hbm, ⟨12, _⟩ => ⟨S8x32x32x112x112, .f32⟩
  | .hbm, ⟨13, _⟩ => ⟨S8x32x32x112x112, .f32⟩
  | .hbm, ⟨14, _⟩ => ⟨S8x32x32x112x112, .f32⟩
  | .hbm, ⟨15, _⟩ => ⟨S_, .f32⟩
  | .hbm, ⟨16, _⟩ => ⟨S8x32x112x112, .f32⟩
  | .hbm, ⟨17, _⟩ => ⟨S8x32x112x112, .f32⟩
  | .hbm, ⟨18, _⟩ => ⟨S8x32x112x112, .f32⟩
  | .hbm, ⟨19, _⟩ => ⟨S32x32x1x1, .f32⟩
  | .hbm, ⟨20, _⟩ => ⟨S32x32, .f32⟩
  | .hbm, ⟨21, _⟩ => ⟨S8x1x32x112x112, .f32⟩
  | .hbm, ⟨22, _⟩ => ⟨S1x32x32x1x1, .f32⟩
  | .hbm, ⟨23, _⟩ => ⟨S8x32x32x112x112, .f32⟩
  | .hbm, ⟨24, _⟩ => ⟨S8x32x32x112x112, .f32⟩
  | .hbm, ⟨25, _⟩ => ⟨S8x32x32x112x112, .f32⟩
  | .hbm, ⟨26, _⟩ => ⟨S_, .f32⟩
  | .hbm, ⟨27, _⟩ => ⟨S8x32x112x112, .f32⟩
  | .hbm, ⟨28, _⟩ => ⟨S8x32x112x112, .f32⟩
  | .hbm, ⟨29, _⟩ => ⟨S8x32x112x112, .f32⟩
  | .hbm, ⟨30, _⟩ => ⟨S32x32x1x1, .f32⟩
  | .hbm, ⟨31, _⟩ => ⟨S32x32, .f32⟩
  | .hbm, ⟨32, _⟩ => ⟨S8x1x32x112x112, .f32⟩
  | .hbm, ⟨33, _⟩ => ⟨S1x32x32x1x1, .f32⟩
  | .hbm, ⟨34, _⟩ => ⟨S8x32x32x112x112, .f32⟩
  | .hbm, ⟨35, _⟩ => ⟨S8x32x32x112x112, .f32⟩
  | .hbm, ⟨36, _⟩ => ⟨S8x32x32x112x112, .f32⟩
  | .hbm, ⟨37, _⟩ => ⟨S_, .f32⟩
  | .hbm, ⟨38, _⟩ => ⟨S8x32x112x112, .f32⟩
  | .hbm, ⟨39, _⟩ => ⟨S8x32x112x112, .f32⟩
  | .hbm, ⟨40, _⟩ => ⟨S8x32x112x112, .f32⟩
  | .hbm, ⟨41, _⟩ => ⟨S32x32x1x1, .f32⟩
  | .hbm, ⟨42, _⟩ => ⟨S32x32, .f32⟩
  | .hbm, ⟨43, _⟩ => ⟨S8x1x32x112x112, .f32⟩
  | .hbm, ⟨44, _⟩ => ⟨S1x32x32x1x1, .f32⟩
  | .hbm, ⟨45, _⟩ => ⟨S8x32x32x112x112, .f32⟩
  | .hbm, ⟨46, _⟩ => ⟨S8x32x32x112x112, .f32⟩
  | .hbm, ⟨47, _⟩ => ⟨S8x32x32x112x112, .f32⟩
  | .hbm, ⟨48, _⟩ => ⟨S_, .f32⟩
  | .hbm, ⟨49, _⟩ => ⟨S8x32x112x112, .f32⟩
  | .hbm, ⟨50, _⟩ => ⟨S8x32x112x112, .f32⟩
  | .hbm, ⟨51, _⟩ => ⟨S8x32x112x112, .f32⟩
  | .hbm, ⟨52, _⟩ => ⟨S32x32x1x1, .f32⟩
  | .hbm, ⟨53, _⟩ => ⟨S32x32, .f32⟩
  | .hbm, ⟨54, _⟩ => ⟨S8x1x32x112x112, .f32⟩
  | .hbm, ⟨55, _⟩ => ⟨S1x32x32x1x1, .f32⟩
  | .hbm, ⟨56, _⟩ => ⟨S8x32x32x112x112, .f32⟩
  | .hbm, ⟨57, _⟩ => ⟨S8x32x32x112x112, .f32⟩
  | .hbm, ⟨58, _⟩ => ⟨S8x32x32x112x112, .f32⟩
  | .hbm, ⟨59, _⟩ => ⟨S_, .f32⟩
  | .hbm, ⟨60, _⟩ => ⟨S8x32x112x112, .f32⟩
  | .hbm, ⟨61, _⟩ => ⟨S8x32x112x112, .f32⟩
  | .hbm, ⟨62, _⟩ => ⟨S8x32x112x112, .f32⟩
  | .hbm, ⟨63, _⟩ => ⟨S32x32x1x1, .f32⟩
  | .hbm, ⟨64, _⟩ => ⟨S32x32, .f32⟩
  | .hbm, ⟨65, _⟩ => ⟨S8x1x32x112x112, .f32⟩
  | .hbm, ⟨66, _⟩ => ⟨S1x32x32x1x1, .f32⟩
  | .hbm, ⟨67, _⟩ => ⟨S8x32x32x112x112, .f32⟩
  | .hbm, ⟨68, _⟩ => ⟨S8x32x32x112x112, .f32⟩
  | .hbm, ⟨69, _⟩ => ⟨S8x32x32x112x112, .f32⟩
  | .hbm, ⟨70, _⟩ => ⟨S_, .f32⟩
  | .hbm, ⟨71, _⟩ => ⟨S8x32x112x112, .f32⟩
  | .hbm, ⟨72, _⟩ => ⟨S8x32x112x112, .f32⟩
  | .hbm, ⟨73, _⟩ => ⟨S8x32x112x112, .f32⟩
  | .hbm, ⟨74, _⟩ => ⟨S32x32x1x1, .f32⟩
  | .hbm, ⟨75, _⟩ => ⟨S32x32, .f32⟩
  | .hbm, ⟨76, _⟩ => ⟨S8x1x32x112x112, .f32⟩
  | .hbm, ⟨77, _⟩ => ⟨S1x32x32x1x1, .f32⟩
  | .hbm, ⟨78, _⟩ => ⟨S8x32x32x112x112, .f32⟩
  | .hbm, ⟨79, _⟩ => ⟨S8x32x32x112x112, .f32⟩
  | .hbm, ⟨80, _⟩ => ⟨S8x32x32x112x112, .f32⟩
  | .hbm, ⟨81, _⟩ => ⟨S_, .f32⟩
  | .hbm, ⟨82, _⟩ => ⟨S8x32x112x112, .f32⟩
  | .hbm, ⟨83, _⟩ => ⟨S8x32x112x112, .f32⟩
  | .hbm, ⟨84, _⟩ => ⟨S8x32x112x112, .f32⟩
  | .hbm, ⟨85, _⟩ => ⟨S32x32x1x1, .f32⟩
  | .hbm, ⟨86, _⟩ => ⟨S32x32, .f32⟩
  | .hbm, ⟨87, _⟩ => ⟨S8x1x32x112x112, .f32⟩
  | .hbm, ⟨88, _⟩ => ⟨S1x32x32x1x1, .f32⟩
  | .hbm, ⟨89, _⟩ => ⟨S8x32x32x112x112, .f32⟩
  | .hbm, ⟨90, _⟩ => ⟨S8x32x32x112x112, .f32⟩
  | .hbm, ⟨91, _⟩ => ⟨S8x32x32x112x112, .f32⟩
  | .hbm, ⟨92, _⟩ => ⟨S_, .f32⟩
  | .hbm, ⟨93, _⟩ => ⟨S8x32x112x112, .f32⟩
  | .hbm, ⟨94, _⟩ => ⟨S8x32x112x112, .f32⟩
  | .hbm, ⟨95, _⟩ => ⟨S8x32x112x112, .f32⟩
  | .hbm, ⟨96, _⟩ => ⟨S32x32x1x1, .f32⟩
  | .hbm, ⟨97, _⟩ => ⟨S32x32, .f32⟩
  | .hbm, ⟨98, _⟩ => ⟨S8x1x32x112x112, .f32⟩
  | .hbm, ⟨99, _⟩ => ⟨S1x32x32x1x1, .f32⟩
  | .hbm, ⟨100, _⟩ => ⟨S8x32x32x112x112, .f32⟩
  | .hbm, ⟨101, _⟩ => ⟨S8x32x32x112x112, .f32⟩
  | .hbm, ⟨102, _⟩ => ⟨S8x32x32x112x112, .f32⟩
  | .hbm, ⟨103, _⟩ => ⟨S_, .f32⟩
  | .hbm, ⟨104, _⟩ => ⟨S8x32x112x112, .f32⟩
  | .hbm, ⟨105, _⟩ => ⟨S8x32x112x112, .f32⟩
  | _, _ => ⟨S8x32x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_7 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_8 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_9 : Ref sig .tc := ⟨.hbm, 103, rfl⟩
abbrev main_v90 : Ref sig .tc := ⟨.hbm, 104, rfl⟩
abbrev main_v91 : Ref sig .tc := ⟨.hbm, 105, rfl⟩

abbrev nD : Nat := 1
abbrev τ : Topo := Topo.v7x

variable {F : FTy → Type} [FloatOps F]

class Facts₀ : Prop where
  pads_S8x32x112x112_S8x32x114x114_000_000_110_110 : S8x32x112x112.Pads (![0, 0, 1, 1] : Fin 4 → Nat) ![0, 0, 1, 1] ![0, 0, 0, 0] S8x32x114x114
  h_S_ : 0 < S_.numel
  bcast_S_S8x32x112x112 : S_.BroadcastsInDim S8x32x112x112 (![] : Fin 0 → Fin S8x32x112x112.rank)
  slices_S8x32x114x114_S8x32x112x112_0_0_0_0 : S8x32x114x114.Slices ![0, 0, 0, 0] S8x32x112x112
  slices_S32x32x3x3_S32x32x1x1_0_0_0_0 : S32x32x3x3.Slices ![0, 0, 0, 0] S32x32x1x1
  shapeCasts_S32x32x1x1_S32x32 : S32x32x1x1.ShapeCasts S32x32
  bcast_S8x32x112x112_S8x1x32x112x112_0_2_3_4 : S8x32x112x112.BroadcastsInDim S8x1x32x112x112 (![0, 2, 3, 4] : Fin 4 → Fin S8x1x32x112x112.rank)
  bcast_S32x32_S1x32x32x1x1_1_2 : S32x32.BroadcastsInDim S1x32x32x1x1 (![1, 2] : Fin 2 → Fin S1x32x32x1x1.rank)
  bcast_S8x1x32x112x112_S8x32x32x112x112_0_1_2_3_4 : S8x1x32x112x112.BroadcastsInDim S8x32x32x112x112 (![0, 1, 2, 3, 4] : Fin 5 → Fin S8x32x32x112x112.rank)
  bcast_S1x32x32x1x1_S8x32x32x112x112_0_1_2_3_4 : S1x32x32x1x1.BroadcastsInDim S8x32x32x112x112 (![0, 1, 2, 3, 4] : Fin 5 → Fin S8x32x32x112x112.rank)
  reducesTo_S8x32x32x112x112_S8x32x112x112_d2 : S8x32x32x112x112.ReducesTo [2] S8x32x112x112
  slices_S8x32x114x114_S8x32x112x112_0_0_0_1 : S8x32x114x114.Slices ![0, 0, 0, 1] S8x32x112x112
  slices_S32x32x3x3_S32x32x1x1_0_0_0_1 : S32x32x3x3.Slices ![0, 0, 0, 1] S32x32x1x1
  slices_S8x32x114x114_S8x32x112x112_0_0_0_2 : S8x32x114x114.Slices ![0, 0, 0, 2] S8x32x112x112
  slices_S32x32x3x3_S32x32x1x1_0_0_0_2 : S32x32x3x3.Slices ![0, 0, 0, 2] S32x32x1x1
  slices_S8x32x114x114_S8x32x112x112_0_0_1_0 : S8x32x114x114.Slices ![0, 0, 1, 0] S8x32x112x112
  slices_S32x32x3x3_S32x32x1x1_0_0_1_0 : S32x32x3x3.Slices ![0, 0, 1, 0] S32x32x1x1
  slices_S8x32x114x114_S8x32x112x112_0_0_1_1 : S8x32x114x114.Slices ![0, 0, 1, 1] S8x32x112x112
  slices_S32x32x3x3_S32x32x1x1_0_0_1_1 : S32x32x3x3.Slices ![0, 0, 1, 1] S32x32x1x1
  slices_S8x32x114x114_S8x32x112x112_0_0_1_2 : S8x32x114x114.Slices ![0, 0, 1, 2] S8x32x112x112
  slices_S32x32x3x3_S32x32x1x1_0_0_1_2 : S32x32x3x3.Slices ![0, 0, 1, 2] S32x32x1x1
  slices_S8x32x114x114_S8x32x112x112_0_0_2_0 : S8x32x114x114.Slices ![0, 0, 2, 0] S8x32x112x112
  slices_S32x32x3x3_S32x32x1x1_0_0_2_0 : S32x32x3x3.Slices ![0, 0, 2, 0] S32x32x1x1
  slices_S8x32x114x114_S8x32x112x112_0_0_2_1 : S8x32x114x114.Slices ![0, 0, 2, 1] S8x32x112x112
  slices_S32x32x3x3_S32x32x1x1_0_0_2_1 : S32x32x3x3.Slices ![0, 0, 2, 1] S32x32x1x1
  slices_S8x32x114x114_S8x32x112x112_0_0_2_2 : S8x32x114x114.Slices ![0, 0, 2, 2] S8x32x112x112
  slices_S32x32x3x3_S32x32x1x1_0_0_2_2 : S32x32x3x3.Slices ![0, 0, 2, 2] S32x32x1x1

variable [Facts₀]

class Facts : Prop extends Facts₀ where

variable [Facts]
-- ==== Proof.ChannelLoop.lean ====
/-
  The channel loop of the kernel body, read as values (at any float instance).

  The body fills the scratch accumulator with the constant -∞, then runs one loop over the 32 input channels;
  trip k loads channel k of the padded image block and row k of the transposed weights, forms from them one
  [32,112,112] array, and stores into the accumulator the pointwise maximum of what the accumulator held and that
  array. After the loop the accumulator is copied to the output block.

  So the accumulator after k trips is a recursion on k (`acc`): the fill at 0, and at k + 1 the trip's
  payload applied to the accumulator after k. This file shows that the pieces the generated run found for the loop
  (a list of stores, the newest first, each trip's payload a function of the contents the trip met) read back as that
  recursion, and that the output block the body leaves is the accumulator after all 32 trips, re-shaped.
-/
import proofs.«181158_j15341623181422_1_alg».proof.Proof.Gen.KernelIdeal.Value
import Idealize.ShloMosaic.Lib.Pipeline.Value
import Idealize.ShloMosaic.Lib.Tactic

set_option maxRecDepth 16384

noncomputable section

namespace Cert.KernelIdeal.ChannelLoop

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Channel `k` of the image block, as trip `k` loads it: a [1,1,114,114] box of the [1,32,114,114] block. -/
abbrev xChan (x0 : Vec F S1x32x114x114 .f32) (k : Fin k0_t1_loop.trips) : Vec F S1x1x114x114 .f32 :=
  View.ld x0 (Rect.unit (k0_off1 k) S1x1x114x114.size (k0_off1_inb k))

/-- Row `k` of the transposed weights, as trip `k` loads it: a [1,32,3,3] box of the [32,32,3,3] block. -/
abbrev wChan (x1 : Vec F S32x32x3x3 .f32) (k : Fin k0_t1_loop.trips) : Vec F S1x32x3x3 .f32 :=
  View.ld x1 (Rect.unit (k0_off2 k) S1x32x3x3.size (k0_off2_inb k))

/-- What trip `k` stores into the accumulator that held `a`: the body's payload of the two loads and `a`. -/
def tripVal (x0 : Vec F S1x32x114x114 .f32) (x1 : Vec F S32x32x3x3 .f32) (k : Fin k0_t1_loop.trips)
    (a : Vec F S32x112x112 .f32) : Vec F S32x112x112 .f32 :=
  k0_pay2 (k0_pay4 (xChan x0 k)) (k0_pay5 (wChan x1 k)) (k0_pay6 (xChan x0 k) (wChan x1 k)) (k0_pay7 (xChan x0 k))
    (k0_pay8 (wChan x1 k)) a

/-- The accumulator after `k` trips: the fill, then one trip's payload after another. -/
def acc (x0 : Vec F S1x32x114x114 .f32) (x1 : Vec F S32x32x3x3 .f32) : ℕ → Vec F S32x112x112 .f32
  | 0 => k0_pay1
  | k + 1 => if h : k < k0_t1_loop.trips then tripVal x0 x1 ⟨k, h⟩ (acc x0 x1 k) else acc x0 x1 k

theorem acc_succ (x0 : Vec F S1x32x114x114 .f32) (x1 : Vec F S32x32x3x3 .f32) (k : Fin k0_t1_loop.trips) :
    acc x0 x1 (k.val + 1) = tripVal x0 x1 k (acc x0 x1 k.val) := by
  rw [acc]; exact dif_pos k.isLt

/-- The fill: the one store before the loop, over the whole accumulator. -/
abbrev fill : View.Piece (Elt F) S32x112x112 .f32 :=
  ⟨Rect.unit ![0, 0, 0] S32x112x112.size inb_S32x112x112_S32x112x112_0_0_0, k0_pay1⟩

/-- ONE TRIP's pieces, found by the generated run, are one store over the whole accumulator, of the trip's payload
    at what the accumulator's memref reads when the trip begins. -/
theorem tripL_eq (𝒱 : Variants) (c : Dev nD) (bd : Option 𝒱.V) (i : grid0.Coords)
    (arg1 : Memref sig .tc .vmem S1x32x114x114 .f32) (harg1 : arg1.IsWhole)
    (arg2 : Memref sig .tc .vmem S32x32x3x3 .f32) (harg2 : arg2.IsWhole)
    (arg3 : Memref sig .tc .vmem S1x32x112x112 .f32) (harg3 : arg3.IsWhole)
    (arg4 : Memref sig .tc .vmem S32x112x112 .f32) (harg4 : arg4.IsWhole)
    (x0 : Vec F S1x32x114x114 .f32) (x1 : Vec F S32x32x3x3 .f32) (k : Fin k0_t1_loop.trips)
    (f : BufTy.Contents (Elt F) arg4.view.ty) :
    tripL_k0_t1 (F := F) 𝒱 c bd i arg1 harg1 arg2 harg2 arg3 harg3 arg4 harg4 (harg1.unread x0) (harg2.unread x1) k f
      = [⟨Rect.unit ![0, 0, 0] S32x112x112.size inb_S32x112x112_S32x112x112_0_0_0,
          tripVal x0 x1 k (arg4.view.read (Elt F) f)⟩] := by
  unfold tripL_k0_t1 trip_k0_t1
  dsimp only
  sl_unfold_run_names
  unfold tripVal xChan wChan
  simp only [View.readAt_eq_ld, harg1.read_unread, harg2.read_unread, View.ld_unit_zero (S := S32x112x112) hz3]

/-- The stores of the first `k` trips over the fill, read back, are the accumulator after `k` trips. -/
theorem canon_pb (𝒱 : Variants) (c : Dev nD) (bd : Option 𝒱.V) (i : grid0.Coords)
    (arg1 : Memref sig .tc .vmem S1x32x114x114 .f32) (harg1 : arg1.IsWhole)
    (arg2 : Memref sig .tc .vmem S32x32x3x3 .f32) (harg2 : arg2.IsWhole)
    (arg3 : Memref sig .tc .vmem S1x32x112x112 .f32) (harg3 : arg3.IsWhole)
    (arg4 : Memref sig .tc .vmem S32x112x112 .f32) (harg4 : arg4.IsWhole)
    (x0 : Vec F S1x32x114x114 .f32) (x1 : Vec F S32x32x3x3 .f32) :
    ∀ k : ℕ, k ≤ k0_t1_loop.trips →
      View.canon (pb_k0_t1 (F := F) 𝒱 c bd i arg1 harg1 arg2 harg2 arg3 harg3 arg4 harg4 (harg1.unread x0) (harg2.unread x1)
        (arg4.view.writes (Elt F) arg4.view.junk [fill]) k ++ [fill]) = acc x0 x1 k
  | 0, _ => by
    rw [pb_k0_t1.eq_1, List.nil_append, View.canon_unit_zero hz3]; rfl
  | k + 1, hk => by
    have ih := canon_pb 𝒱 c bd i arg1 harg1 arg2 harg2 arg3 harg3 arg4 harg4 x0 x1 k (Nat.le_of_succ_le hk)
    have h := pb_k0_t1_succ (F := F) 𝒱 c bd i arg1 harg1 arg2 harg2 arg3 harg3 arg4 harg4 (harg1.unread x0) (harg2.unread x1)
      (arg4.view.writes (Elt F) arg4.view.junk [fill]) ⟨k, hk⟩
    rw [show (⟨k, hk⟩ : Fin k0_t1_loop.trips).val = k from rfl] at h
    rw [h, tripL_eq, ← View.writes_append, View.read_writes_junk_eq_canon, ih, List.singleton_append,
      List.cons_append, View.canon_cons_unit_zero hz3]
    exact (acc_succ x0 x1 ⟨k, hk⟩).symm

theorem trips_eq : Scf.trips k0_t1_loop.lb k0_t1_loop.ub k0_t1_loop.st = 32 := by decide +kernel

/-- THE BODY'S OUTPUT BLOCK, as the generated run found it, is the accumulator after all 32 trips, re-shaped to the
    block's [1,32,112,112]. -/
theorem out_eq (c : Dev nD) (i : grid0.Coords)
    (arg1 : Memref sig .tc .vmem S1x32x114x114 .f32) (harg1 : arg1.IsWhole)
    (arg2 : Memref sig .tc .vmem S32x32x3x3 .f32) (harg2 : arg2.IsWhole)
    (arg3 : Memref sig .tc .vmem S1x32x112x112 .f32) (harg3 : arg3.IsWhole)
    (arg4 : Memref sig .tc .vmem S32x112x112 .f32) (harg4 : arg4.IsWhole)
    (x0 : Vec F S1x32x114x114 .f32) (x1 : Vec F S32x32x3x3 .f32) :
    out0_A_2 c i arg1 harg1 arg2 harg2 arg3 harg3 arg4 harg4 x0 x1 = k0_pay3 (acc x0 x1 32) := by
  unfold out0_A_2
  rw [View.read_writes_junk_eq_canon]
  unfold kernelRun0_A
  dsimp only
  sl_unfold_run_names
  rw [View.canon_unit_zero hz4, View.readAt_writes_junk_eq_canon, trips_eq]
  have h := canon_pb (F := F) Variants.none c none i arg1 harg1 arg2 harg2 arg3 harg3 arg4 harg4 x0 x1 32
    (by rw [show k0_t1_loop.trips = 32 from trips_eq])
  congr 1
  rw [← h]
  exact View.ld_unit_zero (S := S32x112x112) hz3 _ _

end Cert.KernelIdeal.ChannelLoop

end
-- ==== Proof.MaxMin.lean ====
/-
  The max-min ("tropical") convolution over the extended reals, and the order facts that make every way of
  computing it equal.

  For a padded image `xp` of shape [8,32,114,114] and weights `k` of shape [32,32,3,3] the result at
  (n, o, h, w) is the supremum, over the 32 input channels `ch` and the 3 × 3 taps (kh, kw), of
      min (xp[n, ch, h + kh, w + kw]) (k[o, ch, kh, kw]).
  A supremum is determined by its upper bounds (`y = sup` iff `y ≤ z ↔ every candidate ≤ z` for all `z`), so two
  computations agree as soon as both have the candidates' upper bounds as their own. Only the lattice order of the
  extended reals is used: no arithmetic, hence no finiteness.
-/
import Idealize.ShloMosaic.Lib.ValueIdx
import Mathlib.Order.CompleteLattice.Basic
import Mathlib.Data.Finset.Fold

noncomputable section

namespace Cert.MaxMin

open Idealize.ShloMosaic Idealize.ShloMosaic.ValueIdx

/-- The padded image's coordinate under output coordinate `h` at tap offset `d`. -/
abbrev shift (h : Fin 112) (d : Fin 3) : Fin 114 := ⟨h.val + d.val, by have := h.isLt; have := d.isLt; omega⟩

abbrev SXp : Shape := ⟨4, ![8, 32, 114, 114]⟩
abbrev SK : Shape := ⟨4, ![32, 32, 3, 3]⟩
abbrev SOut : Shape := ⟨4, ![8, 32, 112, 112]⟩

/-- One candidate: the smaller of an image entry and a weight. -/
def cand (xp : SXp.Idx → EReal) (k : SK.Idx → EReal) (n : Fin 8) (o : Fin 32) (h w : Fin 112)
    (ch : Fin 32) (kh kw : Fin 3) : EReal :=
  min (xp (ix4 n ch (shift h kh) (shift w kw))) (k (ix4 o ch kh kw))

/-- THE SPECIFICATION: the supremum of the candidates over channels and taps. -/
def conv (xp : SXp.Idx → EReal) (k : SK.Idx → EReal) : SOut.Idx → EReal := fun j =>
  ⨆ ch : Fin 32, ⨆ kh : Fin 3, ⨆ kw : Fin 3, cand xp k (j 0) (j 1) (j 2) (j 3) ch kh kw

theorem conv_le_iff (xp : SXp.Idx → EReal) (k : SK.Idx → EReal) (j : SOut.Idx) (z : EReal) :
    conv xp k j ≤ z ↔ ∀ ch kh kw, cand xp k (j 0) (j 1) (j 2) (j 3) ch kh kw ≤ z := by
  simp only [conv, iSup_le_iff]

/-- Nine values joined by `max`, tap by tap, are bounded exactly when each is. -/
theorem max9_le_iff {α : Type} [LinearOrder α] (t : Fin 3 → Fin 3 → α) (z : α) :
    max (max (max (max (max (max (max (max (t 0 0) (t 0 1)) (t 0 2)) (t 1 0)) (t 1 1)) (t 1 2)) (t 2 0)) (t 2 1)) (t 2 2) ≤ z
      ↔ ∀ kh kw, t kh kw ≤ z := by
  simp only [max_le_iff]
  constructor
  · rintro ⟨⟨⟨⟨⟨⟨⟨⟨h00, h01⟩, h02⟩, h10⟩, h11⟩, h12⟩, h20⟩, h21⟩, h22⟩ kh kw
    fin_cases kh <;> fin_cases kw <;> assumption
  · intro H
    exact ⟨⟨⟨⟨⟨⟨⟨⟨H 0 0, H 0 1⟩, H 0 2⟩, H 1 0⟩, H 1 1⟩, H 1 2⟩, H 2 0⟩, H 2 1⟩, H 2 2⟩

/-- A running maximum over the channels, started at the bottom: after `k` steps its upper bounds are those of the
    first `k` terms. -/
theorem running_le_iff (a : ℕ → EReal) (l : Fin 32 → EReal) (h0 : a 0 = ⊥)
    (hs : ∀ k : Fin 32, a (k.val + 1) = max (a k.val) (l k)) (z : EReal) :
    ∀ k : ℕ, k ≤ 32 → (a k ≤ z ↔ ∀ ch : Fin 32, ch.val < k → l ch ≤ z)
  | 0, _ => by rw [h0]; exact ⟨fun _ ch h => absurd h (Nat.not_lt_zero _), fun _ => bot_le⟩
  | k + 1, hk => by
    have ih := running_le_iff a l h0 hs z k (Nat.le_of_succ_le hk)
    have e := hs ⟨k, hk⟩
    rw [show (⟨k, hk⟩ : Fin 32).val = k from rfl] at e
    rw [e, max_le_iff, ih]
    constructor
    · rintro ⟨h1, h2⟩ ch hch
      rcases Nat.lt_succ_iff_lt_or_eq.mp hch with h | h
      · exact h1 ch h
      · have : ch = ⟨k, hk⟩ := Fin.ext h
        rw [this]; exact h2
    · intro H
      exact ⟨fun ch h => H ch (Nat.lt_succ_of_lt h), H ⟨k, hk⟩ (Nat.lt_succ_self k)⟩

/-- So a running maximum over all 32 channels of the nine taps' maxima is the specification's supremum. -/
theorem eq_conv_of_running (xp : SXp.Idx → EReal) (k : SK.Idx → EReal) (j : SOut.Idx) (a : ℕ → EReal) (h0 : a 0 = ⊥)
    (hs : ∀ ch : Fin 32, a (ch.val + 1) = max (a ch.val)
      (max (max (max (max (max (max (max (max (cand xp k (j 0) (j 1) (j 2) (j 3) ch 0 0) (cand xp k (j 0) (j 1) (j 2) (j 3) ch 0 1))
        (cand xp k (j 0) (j 1) (j 2) (j 3) ch 0 2)) (cand xp k (j 0) (j 1) (j 2) (j 3) ch 1 0)) (cand xp k (j 0) (j 1) (j 2) (j 3) ch 1 1))
        (cand xp k (j 0) (j 1) (j 2) (j 3) ch 1 2)) (cand xp k (j 0) (j 1) (j 2) (j 3) ch 2 0)) (cand xp k (j 0) (j 1) (j 2) (j 3) ch 2 1))
        (cand xp k (j 0) (j 1) (j 2) (j 3) ch 2 2))) :
    a 32 = conv xp k j := by
  refine eq_of_forall_ge_iff fun z => ?_
  rw [running_le_iff a _ h0 hs z 32 (Nat.le_refl _), conv_le_iff]
  constructor
  · intro H ch kh kw
    exact (max9_le_iff (fun kh kw => cand xp k (j 0) (j 1) (j 2) (j 3) ch kh kw) z).mp (H ch ch.isLt) kh kw
  · intro H ch _
    exact (max9_le_iff (fun kh kw => cand xp k (j 0) (j 1) (j 2) (j 3) ch kh kw) z).mpr (H ch)

/-- The maximum over the channels of one tap, folded from the bottom. -/
abbrev tapMax (xp : SXp.Idx → EReal) (k : SK.Idx → EReal) (j : SOut.Idx) (kh kw : Fin 3) : EReal :=
  (Finset.univ : Finset (Fin 32)).fold max ⊥ (fun ch => cand xp k (j 0) (j 1) (j 2) (j 3) ch kh kw)

/-- The nine taps' channel maxima joined tap by tap onto the bottom are the specification's supremum too. -/
theorem eq_conv_of_taps (xp : SXp.Idx → EReal) (k : SK.Idx → EReal) (j : SOut.Idx) :
    max (max (max (max (max (max (max (max (max ⊥ (tapMax xp k j 0 0)) (tapMax xp k j 0 1)) (tapMax xp k j 0 2))
      (tapMax xp k j 1 0)) (tapMax xp k j 1 1)) (tapMax xp k j 1 2)) (tapMax xp k j 2 0)) (tapMax xp k j 2 1)) (tapMax xp k j 2 2)
      = conv xp k j := by
  refine eq_of_forall_ge_iff fun z => ?_
  rw [max_eq_right (bot_le : (⊥ : EReal) ≤ tapMax xp k j 0 0), max9_le_iff (fun kh kw => tapMax xp k j kh kw) z, conv_le_iff]
  simp only [tapMax, Finset.fold_max_le, bot_le, true_and, Finset.mem_univ, forall_true_left]
  exact ⟨fun H ch kh kw => H kh kw ch, fun H kh kw ch => H ch kh kw⟩

end Cert.MaxMin

end
-- ==== Proof.Taps.lean ====
/-
  One trip of the channel loop, read at an index of the accumulator (at the ideal instance).

  Trip `k` takes channel `k` of the padded image block (a 114 × 114 plane) and row `k` of the transposed weights
  (a 32 × 3 × 3 array). For each of the nine taps (kh, kw) it slices the 112 × 112 window of the plane at offset
  (kh, kw), and the 32 weights of that tap, and broadcasts both to [32,112,112]; so the tap's array at (o, h, w) is
      min (plane[h + kh, w + kw]) (weights[o, kh, kw]).
  The trip stores the maximum of the accumulator and of the nine taps' arrays, joined in tap order.
-/
import proofs.«181158_j15341623181422_1_alg».proof.Proof.ChannelLoop
import proofs.«181158_j15341623181422_1_alg».proof.Proof.MaxMin
import Idealize.ShloMosaic.Lib.ValueIdx
import Idealize.ShloMosaic.Lib.Pipeline.Value

set_option maxRecDepth 16384

noncomputable section

namespace Cert.KernelIdeal.Taps

open Cert.KernelIdeal Cert.KernelIdeal.Gen Cert.KernelIdeal.ChannelLoop Cert.MaxMin
open Idealize.ShloMosaic Idealize.ShloMosaic.ValueIdx

variable {α : Type}

/-- The image side of a tap: the plane's window at offsets `off`, given a leading unit axis and broadcast over the
    32 output channels, at (o, h, w) is the plane at (off 0 + h, off 1 + w). -/
theorem planeTap (v : S114x114.Idx → α) (off : Fin 2 → Nat) (hs : S114x114.Slices off S112x112)
    (hc : S112x112.ShapeCasts S1x112x112) (hb : S1x112x112.Broadcasts S32x112x112)
    (o : Fin 32) (h w : Fin 112) (a b : Fin 114) (ha : a.val = off 0 + h.val) (hb' : b.val = off 1 + w.val) :
    broadcastTo S32x112x112 (shapeCast S1x112x112 (extractStridedSlice S112x112 off v hs) hc) hb (ix3 o h w) = v (ix2 a b) := by
  refine (broadcastTo_apply _ hb (ix3 o h w) (ix3 (0 : Fin 1) h w) (fun d => match d with
    | ⟨0, _⟩ => rfl
    | ⟨1, _⟩ => rfl
    | ⟨2, _⟩ => rfl)).trans ?_
  refine (shapeCast_apply _ hc (ix3 (0 : Fin 1) h w) (ix2 h w) (by
    rw [Shape.rowMajor_val_two, Shape.rowMajor_val_three]
    show h.val * 112 + w.val = ((0 : Nat) * 112 + h.val) * 112 + w.val
    omega)).trans ?_
  exact extractStridedSlice_apply off v hs (ix2 h w) (ix2 a b) (fun d => match d with
    | ⟨0, _⟩ => ha
    | ⟨1, _⟩ => hb')

/-- The weight side of a tap: the 32 weights at tap `(kh, kw)`, flattened, given two trailing unit axes and
    broadcast over the 112 × 112 positions, at (o, h, w) is the weight at (o, kh, kw). -/
theorem weightTap (v : S32x3x3.Idx → α) (off : Fin 3 → Nat) (hs : S32x3x3.Slices off S32x1x1)
    (hc1 : S32x1x1.ShapeCasts S32) (hc2 : S32.ShapeCasts S32x1x1) (hb : S32x1x1.Broadcasts S32x112x112)
    (o : Fin 32) (h w : Fin 112) (kh kw : Fin 3) (h0 : off 0 = 0) (h1 : off 1 = kh.val) (h2 : off 2 = kw.val) :
    broadcastTo S32x112x112 (shapeCast S32x1x1 (shapeCast S32 (extractStridedSlice S32x1x1 off v hs) hc1) hc2) hb (ix3 o h w)
      = v (ix3 o kh kw) := by
  refine (broadcastTo_apply _ hb (ix3 o h w) (ix3 o (0 : Fin 1) (0 : Fin 1)) (fun d => match d with
    | ⟨0, _⟩ => rfl
    | ⟨1, _⟩ => rfl
    | ⟨2, _⟩ => rfl)).trans ?_
  refine (shapeCast_apply _ hc2 (ix3 o (0 : Fin 1) (0 : Fin 1)) (ix1 o) (by
    rw [Shape.rowMajor_val_one, Shape.rowMajor_val_three]
    show o.val = (o.val * 1 + (0 : Nat)) * 1 + (0 : Nat)
    omega)).trans ?_
  refine (shapeCast_apply _ hc1 (ix1 o) (ix3 o (0 : Fin 1) (0 : Fin 1)) (by
    rw [Shape.rowMajor_val_one, Shape.rowMajor_val_three]
    show (o.val * 1 + (0 : Nat)) * 1 + (0 : Nat) = o.val
    omega)).trans ?_
  exact extractStridedSlice_apply off v hs (ix3 o (0 : Fin 1) (0 : Fin 1)) (ix3 o kh kw) (fun d => match d with
    | ⟨0, _⟩ => by show o.val = off 0 + o.val; rw [h0]; omega
    | ⟨1, _⟩ => by show kh.val = off 1 + (0 : Nat); rw [h1]; omega
    | ⟨2, _⟩ => by show kw.val = off 2 + (0 : Nat); rw [h2]; omega)

/-- One tap's candidate over a plane and a weight array. -/
abbrev tapMin (p : S114x114.Idx → EReal) (q : S32x3x3.Idx → EReal) (o : Fin 32) (h w : Fin 112) (kh kw : Fin 3) : EReal :=
  min (p (ix2 (shift h kh) (shift w kw))) (q (ix3 o kh kw))

/-- WHAT A TRIP STORES, at (o, h, w): the maximum of the accumulator there and of the nine candidates over the trip's
    plane and weights, joined in tap order. -/
theorem tripVal_apply (x0 : Vec Ideal S1x32x114x114 .f32) (x1 : Vec Ideal S32x32x3x3 .f32) (k : Fin k0_t1_loop.trips)
    (a : Vec Ideal S32x112x112 .f32) (o : Fin 32) (h w : Fin 112) :
    tripVal x0 x1 k a (ix3 o h w) = max (a (ix3 o h w))
      (max (max (max (max (max (max (max (max
        (tapMin (k0_pay4 (xChan x0 k)) (k0_pay5 (wChan x1 k)) o h w 0 0)
        (tapMin (k0_pay4 (xChan x0 k)) (k0_pay5 (wChan x1 k)) o h w 0 1))
        (tapMin (k0_pay4 (xChan x0 k)) (k0_pay5 (wChan x1 k)) o h w 0 2))
        (tapMin (k0_pay4 (xChan x0 k)) (k0_pay5 (wChan x1 k)) o h w 1 0))
        (tapMin (k0_pay4 (xChan x0 k)) (k0_pay5 (wChan x1 k)) o h w 1 1))
        (tapMin (k0_pay4 (xChan x0 k)) (k0_pay5 (wChan x1 k)) o h w 1 2))
        (tapMin (k0_pay4 (xChan x0 k)) (k0_pay5 (wChan x1 k)) o h w 2 0))
        (tapMin (k0_pay4 (xChan x0 k)) (k0_pay5 (wChan x1 k)) o h w 2 1))
        (tapMin (k0_pay4 (xChan x0 k)) (k0_pay5 (wChan x1 k)) o h w 2 2)) := by
  unfold tripVal k0_pay2 k0_pay6 k0_pay7 k0_pay8
  dsimp only
  simp only [maximumf_apply, minimumf_apply, shapeCast_self]
  have tap : ∀ (off2 : Fin 2 → Nat) (off3 : Fin 3 → Nat) (hs2 : S114x114.Slices off2 S112x112) (hs3 : S32x3x3.Slices off3 S32x1x1)
      (hc : S112x112.ShapeCasts S1x112x112) (hb : S1x112x112.Broadcasts S32x112x112)
      (hc1 : S32x1x1.ShapeCasts S32) (hc2 : S32.ShapeCasts S32x1x1) (hb2 : S32x1x1.Broadcasts S32x112x112) (kh kw : Fin 3)
      (e0 : off2 0 = kh.val) (e1 : off2 1 = kw.val) (f0 : off3 0 = 0) (f1 : off3 1 = kh.val) (f2 : off3 2 = kw.val),
      min (broadcastTo S32x112x112 (shapeCast S1x112x112 (extractStridedSlice S112x112 off2 (k0_pay4 (xChan x0 k)) hs2) hc) hb (ix3 o h w))
          (broadcastTo S32x112x112 (shapeCast S32x1x1 (shapeCast S32 (extractStridedSlice S32x1x1 off3 (k0_pay5 (wChan x1 k)) hs3) hc1) hc2) hb2 (ix3 o h w))
        = tapMin (k0_pay4 (xChan x0 k)) (k0_pay5 (wChan x1 k)) o h w kh kw := by
    intro off2 off3 hs2 hs3 hc hb hc1 hc2 hb2 kh kw e0 e1 f0 f1 f2
    exact congrArg₂ min
      (planeTap _ off2 hs2 hc hb o h w (shift h kh) (shift w kw) (by show h.val + kh.val = off2 0 + h.val; rw [e0]; omega)
        (by show w.val + kw.val = off2 1 + w.val; rw [e1]; omega))
      (weightTap _ off3 hs3 hc1 hc2 hb2 o h w kh kw f0 f1 f2)
  refine congrArg (max _) ?_
  refine congrArg₂ max (congrArg₂ max (congrArg₂ max (congrArg₂ max (congrArg₂ max (congrArg₂ max (congrArg₂ max (congrArg₂ max
    (tap _ _ _ _ _ _ _ _ _ 0 0 rfl rfl rfl rfl rfl) (tap _ _ _ _ _ _ _ _ _ 0 1 rfl rfl rfl rfl rfl))
    (tap _ _ _ _ _ _ _ _ _ 0 2 rfl rfl rfl rfl rfl)) (tap _ _ _ _ _ _ _ _ _ 1 0 rfl rfl rfl rfl rfl))
    (tap _ _ _ _ _ _ _ _ _ 1 1 rfl rfl rfl rfl rfl)) (tap _ _ _ _ _ _ _ _ _ 1 2 rfl rfl rfl rfl rfl))
    (tap _ _ _ _ _ _ _ _ _ 2 0 rfl rfl rfl rfl rfl)) (tap _ _ _ _ _ _ _ _ _ 2 1 rfl rfl rfl rfl rfl))
    (tap _ _ _ _ _ _ _ _ _ 2 2 rfl rfl rfl rfl rfl)

end Cert.KernelIdeal.Taps

end
-- ==== Proof.Block.lean ====
/-
  The body's output block is the max-min convolution of its two input blocks (at the ideal instance).

  The image block is one batch entry of the padded image, [1,32,114,114]; the weight block is the whole transposed
  weight array, [32 (channel), 32 (output), 3, 3]. Trip `k`'s plane is channel `k` of the image block and its
  weights are row `k` of the weight block, so the trip's nine candidates at (o, h, w) are the specification's
  candidates for channel `k`. The accumulator starts at -∞, the bottom of the extended reals, and each trip joins its
  nine candidates onto it: after 32 trips it is the specification's supremum.
-/
import proofs.«181158_j15341623181422_1_alg».proof.Proof.Taps

set_option maxRecDepth 16384

noncomputable section

namespace Cert.KernelIdeal.Block

open Cert.KernelIdeal Cert.KernelIdeal.Gen Cert.KernelIdeal.ChannelLoop Cert.KernelIdeal.Taps Cert.MaxMin
open Idealize.ShloMosaic Idealize.ShloMosaic.ValueIdx

theorem trips_le (k : Fin k0_t1_loop.trips) : k.val < 32 := Nat.lt_of_lt_of_le k.isLt k0_t1_abs.2.1

/-- The channel a trip works on. -/
abbrev chan (k : Fin k0_t1_loop.trips) : Fin 32 := ⟨k.val, trips_le k⟩

/-- Trip `k`'s plane at (a, b) is the image block at channel `k`. -/
theorem plane_apply (x0 : Vec Ideal S1x32x114x114 .f32) (k : Fin k0_t1_loop.trips) (a b : Fin 114) :
    k0_pay4 (xChan x0 k) (ix2 a b) = x0 (ix4 (0 : Fin 1) (chan k) a b) := by
  unfold k0_pay4
  refine (shapeCast_apply _ _ (ix2 a b) (ix4 (0 : Fin 1) (0 : Fin 1) a b) (by
    rw [Shape.rowMajor_val_two, Shape.rowMajor_val_four]
    show (((0 : Nat) * 1 + (0 : Nat)) * 114 + a.val) * 114 + b.val = a.val * 114 + b.val
    omega)).trans ?_
  show x0 ((Rect.unit (s := S1x32x114x114) (k0_off1 k) S1x1x114x114.size (k0_off1_inb k)).idx (ix4 (0 : Fin 1) (0 : Fin 1) a b)) = _
  refine congrArg x0 (funext fun d => Fin.ext ?_)
  have e := k0_off1_eq k
  match d with
  | ⟨0, _⟩ => show k0_off1 k 0 + 1 * (0 : Nat) = 0; rw [e]; rfl
  | ⟨1, _⟩ => show k0_off1 k 1 + 1 * (0 : Nat) = k.val; rw [e]; rfl
  | ⟨2, _⟩ => show k0_off1 k 2 + 1 * a.val = a.val; rw [e]; show 0 + 1 * a.val = a.val; omega
  | ⟨3, _⟩ => show k0_off1 k 3 + 1 * b.val = b.val; rw [e]; show 0 + 1 * b.val = b.val; omega

/-- Trip `k`'s weights at (o, kh, kw) are the weight block at row `k`. -/
theorem weights_apply (x1 : Vec Ideal S32x32x3x3 .f32) (k : Fin k0_t1_loop.trips) (o : Fin 32) (kh kw : Fin 3) :
    k0_pay5 (wChan x1 k) (ix3 o kh kw) = x1 (ix4 (chan k) o kh kw) := by
  unfold k0_pay5
  refine (shapeCast_apply _ _ (ix3 o kh kw) (ix4 (0 : Fin 1) o kh kw) (by
    rw [Shape.rowMajor_val_three, Shape.rowMajor_val_four]
    show (((0 : Nat) * 32 + o.val) * 3 + kh.val) * 3 + kw.val = (o.val * 3 + kh.val) * 3 + kw.val
    omega)).trans ?_
  show x1 ((Rect.unit (s := S32x32x3x3) (k0_off2 k) S1x32x3x3.size (k0_off2_inb k)).idx (ix4 (0 : Fin 1) o kh kw)) = _
  refine congrArg x1 (funext fun d => Fin.ext ?_)
  have e := k0_off2_eq k
  match d with
  | ⟨0, _⟩ => show k0_off2 k 0 + 1 * (0 : Nat) = k.val; rw [e]; rfl
  | ⟨1, _⟩ => show k0_off2 k 1 + 1 * o.val = o.val; rw [e]; show 0 + 1 * o.val = o.val; omega
  | ⟨2, _⟩ => show k0_off2 k 2 + 1 * kh.val = kh.val; rw [e]; show 0 + 1 * kh.val = kh.val; omega
  | ⟨3, _⟩ => show k0_off2 k 3 + 1 * kw.val = kw.val; rw [e]; show 0 + 1 * kw.val = kw.val; omega

/-- Before the first trip the accumulator holds -∞ everywhere: the bottom of the extended reals. -/
theorem acc_zero (x0 : Vec Ideal S1x32x114x114 .f32) (x1 : Vec Ideal S32x32x3x3 .f32) (o : Fin 32) (h w : Fin 112) :
    acc x0 x1 0 (ix3 o h w) = ⊥ := by
  rw [acc]
  unfold k0_pay1
  rw [shapeCast_self]
  show Ideal.ofBits .f32 0xFF800000#32 = ⊥
  simp [Ideal.ofBits, Ideal.ieee]

section
variable (x0 : Vec Ideal S1x32x114x114 .f32) (x1 : Vec Ideal S32x32x3x3 .f32) (xp : SXp.Idx → EReal) (kk : SK.Idx → EReal) (n : Fin 8)
  (hx : ∀ (ch : Fin 32) (a b : Fin 114), x0 (ix4 (0 : Fin 1) ch a b) = xp (ix4 n ch a b))
  (hk : ∀ (ch o : Fin 32) (kh kw : Fin 3), x1 (ix4 ch o kh kw) = kk (ix4 o ch kh kw))
include hx hk

/-- When the image block is batch entry `n` of `xp` and the weight block is `kk` with its first two axes
    exchanged, a trip's candidate is the specification's candidate at its channel. -/
theorem tapMin_eq (k : Fin k0_t1_loop.trips) (o : Fin 32) (h w : Fin 112) (kh kw : Fin 3) :
    tapMin (k0_pay4 (xChan x0 k)) (k0_pay5 (wChan x1 k)) o h w kh kw = cand xp kk n o h w (chan k) kh kw := by
  show min (k0_pay4 (xChan x0 k) (ix2 (shift h kh) (shift w kw))) (k0_pay5 (wChan x1 k) (ix3 o kh kw))
    = min (xp (ix4 n (chan k) (shift h kh) (shift w kw))) (kk (ix4 o (chan k) kh kw))
  rw [plane_apply, weights_apply, hx, hk]

/-- THE BLOCK: the body's output block at an index `y` is the specification at the array index `i` with the same
    output channel and position in batch entry `n`. -/
theorem block_eq_conv (y : S1x32x112x112.Idx) (i : SOut.Idx) (h0 : i 0 = n) (h1 : (i 1).val = (y 1).val)
    (h2 : (i 2).val = (y 2).val) (h3 : (i 3).val = (y 3).val) :
    k0_pay3 (acc x0 x1 32) y = conv xp kk i := by
  obtain ⟨y0, o, h, w, rfl⟩ : ∃ (y0 : Fin 1) (o : Fin 32) (h w : Fin 112), y = ix4 y0 o h w := ⟨y 0, y 1, y 2, y 3, eq_ix4 y⟩
  have hi : i = ix4 n o h w := (eq_ix4 i).trans (by
    rw [h0, show i 1 = o from Fin.ext h1, show i 2 = h from Fin.ext h2, show i 3 = w from Fin.ext h3]; rfl)
  subst hi
  unfold k0_pay3
  refine (shapeCast_apply _ _ (ix4 y0 o h w) (ix3 o h w) (by
    rw [Shape.rowMajor_val_three, Shape.rowMajor_val_four]
    have hy : y0.val < 1 := y0.isLt
    show (o.val * 112 + h.val) * 112 + w.val = (((y0.val * 32 + o.val) * 112 + h.val) * 112 + w.val)
    have : y0.val = 0 := by omega
    rw [this]; omega)).trans ?_
  refine eq_conv_of_running xp kk (ix4 n o h w) (fun k => acc x0 x1 k (ix3 o h w)) (acc_zero x0 x1 o h w) (fun ch => ?_)
  have hch : ch.val < k0_t1_loop.trips := by rw [show k0_t1_loop.trips = 32 from trips_eq]; exact ch.isLt
  show acc x0 x1 ((⟨ch.val, hch⟩ : Fin k0_t1_loop.trips).val + 1) (ix3 o h w) = _
  rw [acc_succ, tripVal_apply]
  simp only [tapMin_eq x0 x1 xp kk n hx hk]

end

end Cert.KernelIdeal.Block

end
-- ==== Proof.KernelValue.lean ====
/-
  The kernel's result array (at the ideal instance): the max-min convolution of the padded image and the weights.

  The launch has one grid point per batch entry. At point `t` the image window holds batch entry `t` of the padded
  image, the weight window holds the whole transposed weight array, and the output window's block is batch entry
  `t` of the result. The body's block is the convolution of its input blocks, so what point `t` writes back is
  batch entry `t` of the convolution of the padded image with the weights (the transposition undone); the eight
  blocks tile the result array.
-/
import proofs.«181158_j15341623181422_1_alg».proof.Proof.Block
import Idealize.ShloMosaic.Lib.StableHlo.Run

set_option maxRecDepth 16384

noncomputable section

namespace Cert.KernelIdeal.KernelValue

open Cert.KernelIdeal Cert.KernelIdeal.Gen Cert.KernelIdeal.Value Cert.KernelIdeal.ChannelLoop Cert.KernelIdeal.Block Cert.MaxMin
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid: the image and output windows move along the batch axis with the point,
    the weight window stays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The padded image, as the region finds it: the host's pad of the image argument with -∞. -/
theorem V_v0 (c : Dev nD) : (V m c main_v0 : S8x32x114x114.Idx → EReal)
    = pad S8x32x114x114 ![0, 0, 1, 1] ![0, 0, 1, 1] ![0, 0, 0, 0] (m ((c : Thread nD τ).loc main_arg0))
        (id (constant (F := Ideal) S_ .f32 0xFF800000#32)) pads_S8x32x112x112_S8x32x114x114_000_000_110_110 h_S_ := by
  dsimp only [V]
  simp only [hostOps0, hostOps0_1, hostOps0_2, List.flatten_cons, List.flatten_nil, List.append_nil, List.cons_append,
    List.nil_append]
  after_results <;> rfl

/-- The weights, as the region finds them: the weight argument with its first two axes exchanged. -/
theorem V_v1 (c : Dev nD) : (V m c main_v1 : S32x32x3x3.Idx → EReal)
    = transpose S32x32x3x3 [1, 0, 2, 3] (m ((c : Thread nD τ).loc main_arg1)) transposes_S32x32x3x3_S32x32x3x3_1_0_2_3 := by
  dsimp only [V]
  simp only [hostOps0, hostOps0_1, hostOps0_2, List.flatten_cons, List.flatten_nil, List.append_nil, List.cons_append,
    List.nil_append]
  after_results <;> rfl

/-- The batch entry a point works on. -/
abbrev batch (t : Fin cfg0.N) : Fin 8 := ⟨t.val, lt_of_lt_of_eq t.isLt N_0⟩

/-- THE RESULT: the convolution of the padded image (as the region finds it) with the weight argument. -/
def result (c : Dev nD) : Buf (Elt Ideal) ((c : Thread nD τ).loc main_v2) :=
  conv (V m c main_v0) (m ((c : Thread nD τ).loc main_arg1))

/-- The image window's block at point `t` is batch entry `t` of the padded image. -/
theorem image_block (c : Dev nD) (t : Fin cfg0.N) (ch : Fin 32) (a b : Fin 114) :
    (iblk m c 0 t : Vec Ideal S1x32x114x114 .f32) (ix4 (0 : Fin 1) ch a b)
      = (V m c main_v0 : S8x32x114x114.Idx → EReal) (ix4 (batch t) ch a b) := by
  obtain ⟨e0, e1, e2, e3, -⟩ := idx_facts t
  show V m c main_v0 (((cfg0.win 0).blk t).view.emb (ix4 (0 : Fin 1) ch a b)) = _
  refine congrArg (V m c main_v0) (funext fun d => Fin.ext ?_)
  match d with
  | ⟨0, _⟩ => show win0_0.index t (0 : Fin 4) * 1 + 1 * (0 : Nat) = t.val; omega
  | ⟨1, _⟩ => show win0_0.index t (1 : Fin 4) * 32 + 1 * ch.val = ch.val; omega
  | ⟨2, _⟩ => show win0_0.index t (2 : Fin 4) * 114 + 1 * a.val = a.val; omega
  | ⟨3, _⟩ => show win0_0.index t (3 : Fin 4) * 114 + 1 * b.val = b.val; omega

/-- The weight window's block at any point is the weight argument with its first two axes exchanged. -/
theorem weight_block (c : Dev nD) (t : Fin cfg0.N) (ch o : Fin 32) (kh kw : Fin 3) :
    (iblk m c 1 t : Vec Ideal S32x32x3x3 .f32) (ix4 ch o kh kw)
      = (m ((c : Thread nD τ).loc main_arg1) : S32x32x3x3.Idx → EReal) (ix4 o ch kh kw) := by
  obtain ⟨-, -, -, -, e0, e1, e2, e3, -⟩ := idx_facts t
  show (V m c main_v1 : S32x32x3x3.Idx → EReal) (((cfg0.win 1).blk t).view.emb (ix4 ch o kh kw)) = _
  refine (congrFun (V_v1 m c) _).trans ?_
  refine transpose_apply [1, 0, 2, 3] _ _ _ (ix4 o ch kh kw) (fun b => ?_)
  match b with
  | ⟨0, _⟩ => show ch.val = win0_1.index t (0 : Fin 4) * 32 + 1 * ch.val; omega
  | ⟨1, _⟩ => show o.val = win0_1.index t (1 : Fin 4) * 32 + 1 * o.val; omega
  | ⟨2, _⟩ => show kh.val = win0_1.index t (2 : Fin 4) * 3 + 1 * kh.val; omega
  | ⟨3, _⟩ => show kw.val = win0_1.index t (3 : Fin 4) * 3 + 1 * kw.val; omega

/-- WHAT POINT `t` WRITES BACK is block `t` of the result. -/
theorem flushed_eq (c : Dev nD) (t : Fin cfg0.N) :
    (dats m 0 c).flushed 2 t = ((cfg0.win 2).blk t).view.read (Elt Ideal) (result m c) := by
  rw [flushed2_A, out_eq]
  obtain ⟨-, -, -, -, -, -, -, -, e0, e1, e2, e3⟩ := idx_facts t
  funext j
  show k0_pay3 (acc (iblk m c 0 t) (iblk m c 1 t) 32) j
    = conv (V m c main_v0) (m ((c : Thread nD τ).loc main_arg1)) (((cfg0.win 2).blk t).view.emb j)
  have hj0 : (j 0).val < 1 := (j 0).isLt
  refine block_eq_conv (iblk m c 0 t) (iblk m c 1 t) _ _ (batch t) (image_block m c t) (weight_block m c t) j _ ?_ ?_ ?_ ?_
  · apply Fin.ext
    show win0_2.index t (0 : Fin 4) * 1 + 1 * (j 0).val = t.val
    omega
  · show win0_2.index t (1 : Fin 4) * 32 + 1 * (j 1).val = (j 1).val
    omega
  · show win0_2.index t (2 : Fin 4) * 112 + 1 * (j 2).val = (j 2).val
    omega
  · show win0_2.index t (3 : Fin 4) * 112 + 1 * (j 3).val = (j 3).val
    omega

/-- An index of the result array is in point `t`'s block iff each coordinate is in the block's range on its axis. -/
theorem mem_blk (t : Fin cfg0.N) (i : S8x32x112x112.Idx) :
    i ∈ ((cfg0.win 2).blk t).view.set ↔ ∀ a : Fin 4, win0_2.index t a * S1x32x112x112.size a ≤ (i a).val
      ∧ (i a).val < win0_2.index t a * S1x32x112x112.size a + S1x32x112x112.size a := by
  show i ∈ ((View.whole main_v2).slice (win0_2.rect t)).set ↔ _
  rw [View.set_slice_whole, Rect.mem_set_unit]
  exact Iff.rfl

/-- Every index of the result array is in the block of the point of its batch coordinate. -/
theorem cover (i : S8x32x112x112.Idx) :
    ∃ t : Fin cfg0.N, (cfg0.win 2).flush t = true ∧ i ∈ ((cfg0.win 2).blk t).view.set := by
  have hi0 : (i 0).val < 8 := (i 0).isLt
  have hi1 : (i 1).val < 32 := (i 1).isLt
  have hi2 : (i 2).val < 112 := (i 2).isLt
  have hi3 : (i 3).val < 112 := (i 3).isLt
  have hN : (i 0).val < cfg0.N := by rw [show cfg0.N = 8 from N_0]; exact hi0
  refine ⟨⟨(i 0).val, hN⟩, flush0_2 _, ?_⟩
  obtain ⟨-, -, -, -, -, -, -, -, e0, e1, e2, e3⟩ := idx_facts ⟨(i 0).val, hN⟩
  have e0' : win0_2.index ⟨(i 0).val, hN⟩ (0 : Fin 4) = (i 0).val := e0
  rw [mem_blk]
  intro a
  match a with
  | ⟨0, _⟩ => show win0_2.index ⟨(i 0).val, hN⟩ (0 : Fin 4) * 1 ≤ (i 0).val ∧ (i 0).val < win0_2.index ⟨(i 0).val, hN⟩ (0 : Fin 4) * 1 + 1; omega
  | ⟨1, _⟩ => show win0_2.index ⟨(i 0).val, hN⟩ (1 : Fin 4) * 32 ≤ (i 1).val ∧ (i 1).val < win0_2.index ⟨(i 0).val, hN⟩ (1 : Fin 4) * 32 + 32; omega
  | ⟨2, _⟩ => show win0_2.index ⟨(i 0).val, hN⟩ (2 : Fin 4) * 112 ≤ (i 2).val ∧ (i 2).val < win0_2.index ⟨(i 0).val, hN⟩ (2 : Fin 4) * 112 + 112; omega
  | ⟨3, _⟩ => show win0_2.index ⟨(i 0).val, hN⟩ (3 : Fin 4) * 112 ≤ (i 3).val ∧ (i 3).val < win0_2.index ⟨(i 0).val, hN⟩ (3 : Fin 4) * 112 + 112; omega

/-- THE ARRAY after the run is the result. -/
theorem final (c : Dev nD) : (dats m 0 c).arrAt 2 cfg0.N = result m c :=
  (dats m 0 c).arrAt_eq_of_cover 2 (result m c) (fun t _ => flushed_eq m c t) cover

/-- The run, read: the result array at the convolution, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelValue

end
-- ==== Proof.Reference.lean ====
/-
  The reference's result (at the ideal instance) is the max-min convolution of the padded image and the weights.

  The reference pads the image with -∞, and for each of the nine taps (kh, kw), in order, slices the padded image's
  112 × 112 windows at offset (kh, kw) and the 32 × 32 weights of that tap, broadcasts both to [8,32,32,112,112]
  (batch, output, channel, row, column), takes the pointwise minimum, reduces with `max` over the channel axis
  from -∞, and joins the tap's [8,32,112,112] array onto the running result, which starts at -∞. At every index
  that is the nine taps' channel maxima joined onto the bottom: the specification's supremum.
-/
import proofs.«181158_j15341623181422_1_alg».proof.Proof.Gen.ReferenceIdeal.Read
import proofs.«181158_j15341623181422_1_alg».proof.Proof.MaxMin
import Idealize.ShloMosaic.Lib.ValueIdx
import Idealize.ShloMosaic.Lib.Pipeline.Value
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read Cert.MaxMin
open Idealize.ShloMosaic Idealize.ShloMosaic.ValueIdx

theorem neg_inf : Ideal.ofBits .f32 0xFF800000#32 = (⊥ : EReal) := by simp [Ideal.ofBits, Ideal.ieee]

/-- The channel axis of [8,32,32,112,112] reduces away to [8,32,112,112]. -/
theorem hred : S8x32x32x112x112.Reduces [2] S8x32x112x112 := by decide

/-- The source index over a result index with channel `ch` put back. -/
theorem lift_eq (j : S8x32x112x112.Idx) (ch : Fin 32) : hred.lift j ch = ix5 (j 0) (j 1) ch (j 2) (j 3) := by
  funext d
  apply Fin.ext
  show hred.liftVal j ch.val d = _
  unfold Shape.Reduces.liftVal
  match d with
  | ⟨0, _⟩ => rfl
  | ⟨1, _⟩ => rfl
  | ⟨2, _⟩ => rfl
  | ⟨3, _⟩ => rfl
  | ⟨4, _⟩ => rfl

/-- One tap's array, before the reduction, at (n, o, ch, h, w) is the specification's candidate. -/
theorem refTap (xp : S8x32x114x114.Idx → EReal) (k : S32x32x3x3.Idx → EReal) (off : Fin 4 → Nat)
    (hsx : S8x32x114x114.Slices off S8x32x112x112) (hsk : S32x32x3x3.Slices off S32x32x1x1)
    (hc : S32x32x1x1.ShapeCasts S32x32)
    (hb1 : S8x1x32x112x112.BroadcastsInDim S8x32x32x112x112 ![0, 1, 2, 3, 4])
    (hb2 : S8x32x112x112.BroadcastsInDim S8x1x32x112x112 ![0, 2, 3, 4])
    (hb3 : S1x32x32x1x1.BroadcastsInDim S8x32x32x112x112 ![0, 1, 2, 3, 4])
    (hb4 : S32x32.BroadcastsInDim S1x32x32x1x1 ![1, 2])
    (kh kw : Fin 3) (e0 : off 0 = 0) (e1 : off 1 = 0) (e2 : off 2 = kh.val) (e3 : off 3 = kw.val)
    (n : Fin 8) (o ch : Fin 32) (h w : Fin 112) :
    minimumf (F := Ideal) (φ := .f32)
      (broadcastInDim S8x32x32x112x112 ![0, 1, 2, 3, 4] hb1
        (broadcastInDim S8x1x32x112x112 ![0, 2, 3, 4] hb2 (extractStridedSlice S8x32x112x112 off xp hsx)))
      (broadcastInDim S8x32x32x112x112 ![0, 1, 2, 3, 4] hb3
        (broadcastInDim S1x32x32x1x1 ![1, 2] hb4 (shapeCast S32x32 (extractStridedSlice S32x32x1x1 off k hsk) hc)))
      (ix5 n o ch h w) = cand xp k n o h w ch kh kw := by
  refine congrArg₂ min ?_ ?_
  · refine (broadcastInDim_apply _ hb1 _ (ix5 n o ch h w) (ix5 n (0 : Fin 1) ch h w) (fun a => match a with
      | ⟨0, _⟩ => rfl
      | ⟨1, _⟩ => rfl
      | ⟨2, _⟩ => rfl
      | ⟨3, _⟩ => rfl
      | ⟨4, _⟩ => rfl)).trans ?_
    refine (broadcastInDim_apply _ hb2 _ (ix5 n (0 : Fin 1) ch h w) (ix4 n ch h w) (fun a => match a with
      | ⟨0, _⟩ => rfl
      | ⟨1, _⟩ => rfl
      | ⟨2, _⟩ => rfl
      | ⟨3, _⟩ => rfl)).trans ?_
    exact extractStridedSlice_apply off xp hsx (ix4 n ch h w) (ix4 n ch (shift h kh) (shift w kw)) (fun a => match a with
      | ⟨0, _⟩ => by show n.val = off 0 + n.val; rw [e0]; omega
      | ⟨1, _⟩ => by show ch.val = off 1 + ch.val; rw [e1]; omega
      | ⟨2, _⟩ => by show h.val + kh.val = off 2 + h.val; rw [e2]; omega
      | ⟨3, _⟩ => by show w.val + kw.val = off 3 + w.val; rw [e3]; omega)
  · refine (broadcastInDim_apply _ hb3 _ (ix5 n o ch h w) (ix5 (0 : Fin 1) o ch (0 : Fin 1) (0 : Fin 1)) (fun a => match a with
      | ⟨0, _⟩ => rfl
      | ⟨1, _⟩ => rfl
      | ⟨2, _⟩ => rfl
      | ⟨3, _⟩ => rfl
      | ⟨4, _⟩ => rfl)).trans ?_
    refine (broadcastInDim_apply _ hb4 _ (ix5 (0 : Fin 1) o ch (0 : Fin 1) (0 : Fin 1)) (ix2 o ch) (fun a => match a with
      | ⟨0, _⟩ => rfl
      | ⟨1, _⟩ => rfl)).trans ?_
    refine (shapeCast_apply _ hc (ix2 o ch) (ix4 o ch (0 : Fin 1) (0 : Fin 1)) (by
      rw [Shape.rowMajor_val_two, Shape.rowMajor_val_four]
      show ((o.val * 32 + ch.val) * 1 + (0 : Nat)) * 1 + (0 : Nat) = o.val * 32 + ch.val
      omega)).trans ?_
    exact extractStridedSlice_apply off k hsk (ix4 o ch (0 : Fin 1) (0 : Fin 1)) (ix4 o ch kh kw) (fun a => match a with
      | ⟨0, _⟩ => by show o.val = off 0 + o.val; rw [e0]; omega
      | ⟨1, _⟩ => by show ch.val = off 1 + ch.val; rw [e1]; omega
      | ⟨2, _⟩ => by show kh.val = off 2 + (0 : Nat); rw [e2]; omega
      | ⟨3, _⟩ => by show kw.val = off 3 + (0 : Nat); rw [e3]; omega)

/-- A tap's reduction over the channel axis from -∞ is the tap's channel maximum. -/
theorem reduce_tap (A : S8x32x32x112x112.Idx → EReal) (init : S_.Idx → EReal) (hinit : init ix0 = ⊥)
    (xp : S8x32x114x114.Idx → EReal) (k : S32x32x3x3.Idx → EReal) (kh kw : Fin 3) (j : S8x32x112x112.Idx)
    (hA : ∀ ch : Fin 32, A (ix5 (j 0) (j 1) ch (j 2) (j 3)) = cand xp k (j 0) (j 1) (j 2) (j 3) ch kh kw) :
    Host.reduce (FloatOps.maximumf (F := Ideal) (φ := .f32)) A init reducesTo_S8x32x32x112x112_S8x32x112x112_d2 h_S_ j
      = tapMax xp k j kh kw := by
  rw [Host.reduce_eq_fold_single (FloatOps.maximumf (F := Ideal) (φ := .f32)) A init
    reducesTo_S8x32x32x112x112_S8x32x112x112_d2 hred h_S_ j]
  have h0 : init (Shape.Idx.first h_S_) = ⊥ := by
    rw [show Shape.Idx.first h_S_ = ix0 from funext fun a => a.elim0]; exact hinit
  rw [h0]
  refine congrArg (Finset.fold max ⊥ · Finset.univ) (funext fun ch => ?_)
  exact (congrArg A (lift_eq j ch)).trans (hA ch)

end Cert.ReferenceIdeal.RefValue

end
-- ==== Proof.RefTaps.lean ====
/-
  The reference's nine taps: each tap's reduced array at an index is that tap's maximum over the channels of the
  specification's candidates (the generic tap of Proof/Reference.lean at the tap's offsets).
-/
import proofs.«181158_j15341623181422_1_alg».proof.Proof.Reference

set_option maxRecDepth 16384

noncomputable section

namespace Cert.ReferenceIdeal.RefValue

open Cert.ReferenceIdeal Cert.ReferenceIdeal.Gen Cert.ReferenceIdeal.Read Cert.MaxMin
open Idealize.ShloMosaic Idealize.ShloMosaic.ValueIdx

theorem tap_v10 (x0 : S8x32x112x112.Idx → EReal) (x1 : S32x32x3x3.Idx → EReal) (j : S8x32x112x112.Idx) :
    val_main_v10 (F := Ideal) x0 x1 j = tapMax (val_main_v0 (F := Ideal) x0) x1 j 0 0 := by
  unfold val_main_v10
  refine reduce_tap _ _ neg_inf (val_main_v0 (F := Ideal) x0) x1 0 0 j (fun ch => ?_)
  unfold val_main_v9 val_main_v7 val_main_v8 val_main_v5 val_main_v6 val_main_v4 val_main_v3 val_main_v2
  exact refTap (val_main_v0 (F := Ideal) x0) x1 ![0, 0, 0, 0] slices_S8x32x114x114_S8x32x112x112_0_0_0_0
    slices_S32x32x3x3_S32x32x1x1_0_0_0_0 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    0 0 rfl rfl rfl rfl (j 0) (j 1) ch (j 2) (j 3)

theorem tap_v20 (x0 : S8x32x112x112.Idx → EReal) (x1 : S32x32x3x3.Idx → EReal) (j : S8x32x112x112.Idx) :
    val_main_v20 (F := Ideal) x0 x1 j = tapMax (val_main_v0 (F := Ideal) x0) x1 j 0 1 := by
  unfold val_main_v20
  refine reduce_tap _ _ neg_inf (val_main_v0 (F := Ideal) x0) x1 0 1 j (fun ch => ?_)
  unfold val_main_v19 val_main_v17 val_main_v18 val_main_v15 val_main_v16 val_main_v14 val_main_v13 val_main_v12
  exact refTap (val_main_v0 (F := Ideal) x0) x1 ![0, 0, 0, 1] slices_S8x32x114x114_S8x32x112x112_0_0_0_1
    slices_S32x32x3x3_S32x32x1x1_0_0_0_1 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    0 1 rfl rfl rfl rfl (j 0) (j 1) ch (j 2) (j 3)

theorem tap_v30 (x0 : S8x32x112x112.Idx → EReal) (x1 : S32x32x3x3.Idx → EReal) (j : S8x32x112x112.Idx) :
    val_main_v30 (F := Ideal) x0 x1 j = tapMax (val_main_v0 (F := Ideal) x0) x1 j 0 2 := by
  unfold val_main_v30
  refine reduce_tap _ _ neg_inf (val_main_v0 (F := Ideal) x0) x1 0 2 j (fun ch => ?_)
  unfold val_main_v29 val_main_v27 val_main_v28 val_main_v25 val_main_v26 val_main_v24 val_main_v23 val_main_v22
  exact refTap (val_main_v0 (F := Ideal) x0) x1 ![0, 0, 0, 2] slices_S8x32x114x114_S8x32x112x112_0_0_0_2
    slices_S32x32x3x3_S32x32x1x1_0_0_0_2 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    0 2 rfl rfl rfl rfl (j 0) (j 1) ch (j 2) (j 3)

theorem tap_v40 (x0 : S8x32x112x112.Idx → EReal) (x1 : S32x32x3x3.Idx → EReal) (j : S8x32x112x112.Idx) :
    val_main_v40 (F := Ideal) x0 x1 j = tapMax (val_main_v0 (F := Ideal) x0) x1 j 1 0 := by
  unfold val_main_v40
  refine reduce_tap _ _ neg_inf (val_main_v0 (F := Ideal) x0) x1 1 0 j (fun ch => ?_)
  unfold val_main_v39 val_main_v37 val_main_v38 val_main_v35 val_main_v36 val_main_v34 val_main_v33 val_main_v32
  exact refTap (val_main_v0 (F := Ideal) x0) x1 ![0, 0, 1, 0] slices_S8x32x114x114_S8x32x112x112_0_0_1_0
    slices_S32x32x3x3_S32x32x1x1_0_0_1_0 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    1 0 rfl rfl rfl rfl (j 0) (j 1) ch (j 2) (j 3)

theorem tap_v50 (x0 : S8x32x112x112.Idx → EReal) (x1 : S32x32x3x3.Idx → EReal) (j : S8x32x112x112.Idx) :
    val_main_v50 (F := Ideal) x0 x1 j = tapMax (val_main_v0 (F := Ideal) x0) x1 j 1 1 := by
  unfold val_main_v50
  refine reduce_tap _ _ neg_inf (val_main_v0 (F := Ideal) x0) x1 1 1 j (fun ch => ?_)
  unfold val_main_v49 val_main_v47 val_main_v48 val_main_v45 val_main_v46 val_main_v44 val_main_v43 val_main_v42
  exact refTap (val_main_v0 (F := Ideal) x0) x1 ![0, 0, 1, 1] slices_S8x32x114x114_S8x32x112x112_0_0_1_1
    slices_S32x32x3x3_S32x32x1x1_0_0_1_1 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    1 1 rfl rfl rfl rfl (j 0) (j 1) ch (j 2) (j 3)

theorem tap_v60 (x0 : S8x32x112x112.Idx → EReal) (x1 : S32x32x3x3.Idx → EReal) (j : S8x32x112x112.Idx) :
    val_main_v60 (F := Ideal) x0 x1 j = tapMax (val_main_v0 (F := Ideal) x0) x1 j 1 2 := by
  unfold val_main_v60
  refine reduce_tap _ _ neg_inf (val_main_v0 (F := Ideal) x0) x1 1 2 j (fun ch => ?_)
  unfold val_main_v59 val_main_v57 val_main_v58 val_main_v55 val_main_v56 val_main_v54 val_main_v53 val_main_v52
  exact refTap (val_main_v0 (F := Ideal) x0) x1 ![0, 0, 1, 2] slices_S8x32x114x114_S8x32x112x112_0_0_1_2
    slices_S32x32x3x3_S32x32x1x1_0_0_1_2 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    1 2 rfl rfl rfl rfl (j 0) (j 1) ch (j 2) (j 3)

theorem tap_v70 (x0 : S8x32x112x112.Idx → EReal) (x1 : S32x32x3x3.Idx → EReal) (j : S8x32x112x112.Idx) :
    val_main_v70 (F := Ideal) x0 x1 j = tapMax (val_main_v0 (F := Ideal) x0) x1 j 2 0 := by
  unfold val_main_v70
  refine reduce_tap _ _ neg_inf (val_main_v0 (F := Ideal) x0) x1 2 0 j (fun ch => ?_)
  unfold val_main_v69 val_main_v67 val_main_v68 val_main_v65 val_main_v66 val_main_v64 val_main_v63 val_main_v62
  exact refTap (val_main_v0 (F := Ideal) x0) x1 ![0, 0, 2, 0] slices_S8x32x114x114_S8x32x112x112_0_0_2_0
    slices_S32x32x3x3_S32x32x1x1_0_0_2_0 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    2 0 rfl rfl rfl rfl (j 0) (j 1) ch (j 2) (j 3)

theorem tap_v80 (x0 : S8x32x112x112.Idx → EReal) (x1 : S32x32x3x3.Idx → EReal) (j : S8x32x112x112.Idx) :
    val_main_v80 (F := Ideal) x0 x1 j = tapMax (val_main_v0 (F := Ideal) x0) x1 j 2 1 := by
  unfold val_main_v80
  refine reduce_tap _ _ neg_inf (val_main_v0 (F := Ideal) x0) x1 2 1 j (fun ch => ?_)
  unfold val_main_v79 val_main_v77 val_main_v78 val_main_v75 val_main_v76 val_main_v74 val_main_v73 val_main_v72
  exact refTap (val_main_v0 (F := Ideal) x0) x1 ![0, 0, 2, 1] slices_S8x32x114x114_S8x32x112x112_0_0_2_1
    slices_S32x32x3x3_S32x32x1x1_0_0_2_1 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    2 1 rfl rfl rfl rfl (j 0) (j 1) ch (j 2) (j 3)

theorem tap_v90 (x0 : S8x32x112x112.Idx → EReal) (x1 : S32x32x3x3.Idx → EReal) (j : S8x32x112x112.Idx) :
    val_main_v90 (F := Ideal) x0 x1 j = tapMax (val_main_v0 (F := Ideal) x0) x1 j 2 2 := by
  unfold val_main_v90
  refine reduce_tap _ _ neg_inf (val_main_v0 (F := Ideal) x0) x1 2 2 j (fun ch => ?_)
  unfold val_main_v89 val_main_v87 val_main_v88 val_main_v85 val_main_v86 val_main_v84 val_main_v83 val_main_v82
  exact refTap (val_main_v0 (F := Ideal) x0) x1 ![0, 0, 2, 2] slices_S8x32x114x114_S8x32x112x112_0_0_2_2
    slices_S32x32x3x3_S32x32x1x1_0_0_2_2 shapeCasts_S32x32x1x1_S32x32 bcast_S8x1x32x112x112_S8x32x32x112x112_0_1_2_3_4
    bcast_S8x32x112x112_S8x1x32x112x112_0_2_3_4 bcast_S1x32x32x1x1_S8x32x32x112x112_0_1_2_3_4 bcast_S32x32_S1x32x32x1x1_1_2
    2 2 rfl rfl rfl rfl (j 0) (j 1) ch (j 2) (j 3)

end Cert.ReferenceIdeal.RefValue

end
-- ==== Proof.RefResult.lean ====
/-
  The reference's result array, index by index, is the specification: the running result starts at -∞ and each
  tap's channel maximum is joined onto it in tap order.
-/
import proofs.«181158_j15341623181422_1_alg».proof.Proof.RefTaps

set_option maxRecDepth 16384

noncomputable section

namespace Cert.ReferenceIdeal.RefValue

open Cert.ReferenceIdeal Cert.ReferenceIdeal.Gen Cert.ReferenceIdeal.Read Cert.MaxMin
open Idealize.ShloMosaic Idealize.ShloMosaic.ValueIdx

/-- The running result starts at -∞. -/
theorem v1_bot (j : S8x32x112x112.Idx) : val_main_v1 (F := Ideal) j = ⊥ := by
  rw [val_main_v1_apply, val_main_cst_0_apply, Ideal.ofBits_def]; exact neg_inf

/-! The running result after each tap: the taps' channel maxima so far, joined onto the bottom. -/

theorem run_v11 (x0 : S8x32x112x112.Idx → EReal) (x1 : S32x32x3x3.Idx → EReal) (j : S8x32x112x112.Idx) :
    val_main_v11 (F := Ideal) x0 x1 j = (max ⊥ (tapMax (val_main_v0 (F := Ideal) x0) x1 j 0 0)) := by
  rw [val_main_v11_apply, Ideal.maximumf_def, v1_bot, tap_v10]

theorem run_v21 (x0 : S8x32x112x112.Idx → EReal) (x1 : S32x32x3x3.Idx → EReal) (j : S8x32x112x112.Idx) :
    val_main_v21 (F := Ideal) x0 x1 j = (max (max ⊥ (tapMax (val_main_v0 (F := Ideal) x0) x1 j 0 0)) (tapMax (val_main_v0 (F := Ideal) x0) x1 j 0 1)) := by
  rw [val_main_v21_apply, Ideal.maximumf_def, run_v11, tap_v20]

theorem run_v31 (x0 : S8x32x112x112.Idx → EReal) (x1 : S32x32x3x3.Idx → EReal) (j : S8x32x112x112.Idx) :
    val_main_v31 (F := Ideal) x0 x1 j = (max (max (max ⊥ (tapMax (val_main_v0 (F := Ideal) x0) x1 j 0 0)) (tapMax (val_main_v0 (F := Ideal) x0) x1 j 0 1)) (tapMax (val_main_v0 (F := Ideal) x0) x1 j 0 2)) := by
  rw [val_main_v31_apply, Ideal.maximumf_def, run_v21, tap_v30]

theorem run_v41 (x0 : S8x32x112x112.Idx → EReal) (x1 : S32x32x3x3.Idx → EReal) (j : S8x32x112x112.Idx) :
    val_main_v41 (F := Ideal) x0 x1 j = (max (max (max (max ⊥ (tapMax (val_main_v0 (F := Ideal) x0) x1 j 0 0)) (tapMax (val_main_v0 (F := Ideal) x0) x1 j 0 1)) (tapMax (val_main_v0 (F := Ideal) x0) x1 j 0 2)) (tapMax (val_main_v0 (F := Ideal) x0) x1 j 1 0)) := by
  rw [val_main_v41_apply, Ideal.maximumf_def, run_v31, tap_v40]

theorem run_v51 (x0 : S8x32x112x112.Idx → EReal) (x1 : S32x32x3x3.Idx → EReal) (j : S8x32x112x112.Idx) :
    val_main_v51 (F := Ideal) x0 x1 j = (max (max (max (max (max ⊥ (tapMax (val_main_v0 (F := Ideal) x0) x1 j 0 0)) (tapMax (val_main_v0 (F := Ideal) x0) x1 j 0 1)) (tapMax (val_main_v0 (F := Ideal) x0) x1 j 0 2)) (tapMax (val_main_v0 (F := Ideal) x0) x1 j 1 0)) (tapMax (val_main_v0 (F := Ideal) x0) x1 j 1 1)) := by
  rw [val_main_v51_apply, Ideal.maximumf_def, run_v41, tap_v50]

theorem run_v61 (x0 : S8x32x112x112.Idx → EReal) (x1 : S32x32x3x3.Idx → EReal) (j : S8x32x112x112.Idx) :
    val_main_v61 (F := Ideal) x0 x1 j = (max (max (max (max (max (max ⊥ (tapMax (val_main_v0 (F := Ideal) x0) x1 j 0 0)) (tapMax (val_main_v0 (F := Ideal) x0) x1 j 0 1)) (tapMax (val_main_v0 (F := Ideal) x0) x1 j 0 2)) (tapMax (val_main_v0 (F := Ideal) x0) x1 j 1 0)) (tapMax (val_main_v0 (F := Ideal) x0) x1 j 1 1)) (tapMax (val_main_v0 (F := Ideal) x0) x1 j 1 2)) := by
  rw [val_main_v61_apply, Ideal.maximumf_def, run_v51, tap_v60]

theorem run_v71 (x0 : S8x32x112x112.Idx → EReal) (x1 : S32x32x3x3.Idx → EReal) (j : S8x32x112x112.Idx) :
    val_main_v71 (F := Ideal) x0 x1 j = (max (max (max (max (max (max (max ⊥ (tapMax (val_main_v0 (F := Ideal) x0) x1 j 0 0)) (tapMax (val_main_v0 (F := Ideal) x0) x1 j 0 1)) (tapMax (val_main_v0 (F := Ideal) x0) x1 j 0 2)) (tapMax (val_main_v0 (F := Ideal) x0) x1 j 1 0)) (tapMax (val_main_v0 (F := Ideal) x0) x1 j 1 1)) (tapMax (val_main_v0 (F := Ideal) x0) x1 j 1 2)) (tapMax (val_main_v0 (F := Ideal) x0) x1 j 2 0)) := by
  rw [val_main_v71_apply, Ideal.maximumf_def, run_v61, tap_v70]

theorem run_v81 (x0 : S8x32x112x112.Idx → EReal) (x1 : S32x32x3x3.Idx → EReal) (j : S8x32x112x112.Idx) :
    val_main_v81 (F := Ideal) x0 x1 j = (max (max (max (max (max (max (max (max ⊥ (tapMax (val_main_v0 (F := Ideal) x0) x1 j 0 0)) (tapMax (val_main_v0 (F := Ideal) x0) x1 j 0 1)) (tapMax (val_main_v0 (F := Ideal) x0) x1 j 0 2)) (tapMax (val_main_v0 (F := Ideal) x0) x1 j 1 0)) (tapMax (val_main_v0 (F := Ideal) x0) x1 j 1 1)) (tapMax (val_main_v0 (F := Ideal) x0) x1 j 1 2)) (tapMax (val_main_v0 (F := Ideal) x0) x1 j 2 0)) (tapMax (val_main_v0 (F := Ideal) x0) x1 j 2 1)) := by
  rw [val_main_v81_apply, Ideal.maximumf_def, run_v71, tap_v80]

theorem run_v91 (x0 : S8x32x112x112.Idx → EReal) (x1 : S32x32x3x3.Idx → EReal) (j : S8x32x112x112.Idx) :
    val_main_v91 (F := Ideal) x0 x1 j = (max (max (max (max (max (max (max (max (max ⊥ (tapMax (val_main_v0 (F := Ideal) x0) x1 j 0 0)) (tapMax (val_main_v0 (F := Ideal) x0) x1 j 0 1)) (tapMax (val_main_v0 (F := Ideal) x0) x1 j 0 2)) (tapMax (val_main_v0 (F := Ideal) x0) x1 j 1 0)) (tapMax (val_main_v0 (F := Ideal) x0) x1 j 1 1)) (tapMax (val_main_v0 (F := Ideal) x0) x1 j 1 2)) (tapMax (val_main_v0 (F := Ideal) x0) x1 j 2 0)) (tapMax (val_main_v0 (F := Ideal) x0) x1 j 2 1)) (tapMax (val_main_v0 (F := Ideal) x0) x1 j 2 2)) := by
  rw [val_main_v91_apply, Ideal.maximumf_def, run_v81, tap_v90]

/-- THE REFERENCE'S RESULT is the convolution of its padded image with the weights. -/
theorem ref_eq (x0 : S8x32x112x112.Idx → EReal) (x1 : S32x32x3x3.Idx → EReal) :
    val_main_v91 (F := Ideal) x0 x1 = conv (val_main_v0 (F := Ideal) x0) x1 := by
  funext j
  rw [run_v91]
  exact eq_conv_of_taps (val_main_v0 (F := Ideal) x0) x1 j

end Cert.ReferenceIdeal.RefValue

end
-- ==== Proof.lean ====
/-
  The certificate's claims, assembled.

  Both programs compute a max-min ("tropical") convolution: with `xp` the image padded by one row and column of -∞
  on each side, the result at (n, o, h, w) is the maximum over the 32 input channels and the 3 × 3 taps of
  `min (xp[n, ch, h + kh, w + kw]) (weights[o, ch, kh, kw])`. The kernel joins the candidates channel by channel
  (inside a channel, tap by tap) onto an accumulator started at -∞; the reference joins them tap by tap (inside a
  tap, over the channels). A maximum of finitely many extended reals does not depend on the order or grouping in
  which it is formed, so both results are the one supremum (Proof/MaxMin.lean). No arithmetic is involved and the
  inputs' finiteness is not used.

  The three frames are the generated frame runs; the idealization rewrote nothing, so `preserves` is trivial.
-/
import proofs.«181158_j15341623181422_1_alg».proof.Defs
import proofs.«181158_j15341623181422_1_alg».proof.Proof.Gen.Kernel
import proofs.«181158_j15341623181422_1_alg».proof.Proof.Gen.Kernel.Skeleton
import proofs.«181158_j15341623181422_1_alg».proof.Proof.Gen.Kernel.Loops
import proofs.«181158_j15341623181422_1_alg».proof.Proof.Gen.Kernel.Launch
import proofs.«181158_j15341623181422_1_alg».proof.Proof.Gen.Kernel.Points
import proofs.«181158_j15341623181422_1_alg».proof.Proof.Gen.Kernel.Frame
import proofs.«181158_j15341623181422_1_alg».proof.Proof.Gen.KernelIdeal
import proofs.«181158_j15341623181422_1_alg».proof.Proof.Gen.KernelIdeal.Skeleton
import proofs.«181158_j15341623181422_1_alg».proof.Proof.Gen.KernelIdeal.Loops
import proofs.«181158_j15341623181422_1_alg».proof.Proof.Gen.KernelIdeal.Launch
import proofs.«181158_j15341623181422_1_alg».proof.Proof.Gen.KernelIdeal.Points
import proofs.«181158_j15341623181422_1_alg».proof.Proof.Gen.KernelIdeal.Frame
import proofs.«181158_j15341623181422_1_alg».proof.Proof.Gen.ReferenceIdeal
import proofs.«181158_j15341623181422_1_alg».proof.Proof.Gen.Pre_finite_inputs
import proofs.«181158_j15341623181422_1_alg».proof.Proof.Gen.KernelIdeal.Value
import proofs.«181158_j15341623181422_1_alg».proof.Proof.Gen.ReferenceIdeal.Run
import proofs.«181158_j15341623181422_1_alg».proof.Proof.Gen.ReferenceIdeal.Read
import proofs.«181158_j15341623181422_1_alg».proof.Proof.KernelValue
import proofs.«181158_j15341623181422_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the image and the weights, the kernel's result array and the reference's are the
    same convolution: the kernel's of the padded image as its region finds it, the reference's of its own padded
    image, and the two padded images are one pad of the one image. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq, Cert.ReferenceIdeal.RefValue.ref_eq, (hagree c).1, (hagree c).2]
  unfold Cert.KernelIdeal.KernelValue.result
  rw [Cert.KernelIdeal.KernelValue.V_v0]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
